-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128x64 .f32) (main_arg9 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x64 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x800000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S5000x128 : Shape := ⟨2, ![5000, 128]⟩
abbrev S900000x128 : Shape := ⟨2, ![900000, 128]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 112
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S100000, .i32⟩
  | .hbm, ⟨15, _⟩ => ⟨S900000, .i32⟩
  | .hbm, ⟨16, _⟩ => ⟨S900000, .i32⟩
  | .hbm, ⟨17, _⟩ => ⟨S_, .f32⟩
  | .hbm, ⟨18, _⟩ => ⟨S900000, .f32⟩
  | .hbm, ⟨19, _⟩ => ⟨S_, .f32⟩
  | .hbm, ⟨20, _⟩ => ⟨S100000, .f32⟩
  | .hbm, ⟨21, _⟩ => ⟨S900000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .i1⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .i32⟩
  | .hbm, ⟨35, _⟩ => ⟨S900000, .i32⟩
  | .hbm, ⟨36, _⟩ => ⟨S900000, .i1⟩
  | .hbm, ⟨37, _⟩ => ⟨S_, .i32⟩
  | .hbm, ⟨38, _⟩ => ⟨S900000, .i32⟩
  | .hbm, ⟨39, _⟩ => ⟨S900000, .i32⟩
  | .hbm, ⟨40, _⟩ => ⟨S900000, .i32⟩
  | .hbm, ⟨41, _⟩ => ⟨S900000x1, .i32⟩
  | .hbm, ⟨42, _⟩ => ⟨S900000, .f32⟩
  | .hbm, ⟨43, _⟩ => ⟨S_, .i32⟩
  | .hbm, ⟨44, _⟩ => ⟨S900000, .i32⟩
  | .hbm, ⟨45, _⟩ => ⟨S900000, .i1⟩
  | .hbm, ⟨46, _⟩ => ⟨S_, .i32⟩
  | .hbm, ⟨47, _⟩ => ⟨S900000, .i32⟩
  | .hbm, ⟨48, _⟩ => ⟨S900000, .i32⟩
  | .hbm, ⟨49, _⟩ => ⟨S900000, .i32⟩
  | .hbm, ⟨50, _⟩ => ⟨S900000x1, .i32⟩
  | .hbm, ⟨51, _⟩ => ⟨S900000, .f32⟩
  | .hbm, ⟨52, _⟩ => ⟨S900000, .f32⟩
  | .hbm, ⟨53, _⟩ => ⟨S100000x128, .f32⟩
  | .hbm, ⟨54, _⟩ => ⟨S_, .i32⟩
  | .hbm, ⟨55, _⟩ => ⟨S900000, .i32⟩
  | .hbm, ⟨56, _⟩ => ⟨S900000, .i1⟩
  | .hbm, ⟨57, _⟩ => ⟨S_, .i32⟩
  | .hbm, ⟨58, _⟩ => ⟨S900000, .i32⟩
  | .hbm, ⟨59, _⟩ => ⟨S900000, .i32⟩
  | .hbm, ⟨60, _⟩ => ⟨S900000, .i32⟩
  | .hbm, ⟨61, _⟩ => ⟨S900000x1, .i32⟩
  | .hbm, ⟨62, _⟩ => ⟨S900000x128, .f32⟩
  | .hbm, ⟨63, _⟩ => ⟨S900000x1, .f32⟩
  | .hbm, ⟨64, _⟩ => ⟨S900000x128, .f32⟩
  | .hbm, ⟨65, _⟩ => ⟨S900000x128, .f32⟩
  | .hbm, ⟨66, _⟩ => ⟨S_, .f32⟩
  | .hbm, ⟨67, _⟩ => ⟨S100000x128, .f32⟩
  | .hbm, ⟨68, _⟩ => ⟨S900000x1, .i32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .hbm, ⟨73, _⟩ => ⟨S_, .i32⟩
  | .hbm, ⟨74, _⟩ => ⟨S900000, .i32⟩
  | .hbm, ⟨75, _⟩ => ⟨S900000, .i1⟩
  | .hbm, ⟨76, _⟩ => ⟨S_, .i32⟩
  | .hbm, ⟨77, _⟩ => ⟨S900000, .i32⟩
  | .hbm, ⟨78, _⟩ => ⟨S900000, .i32⟩
  | .hbm, ⟨79, _⟩ => ⟨S900000, .i32⟩
  | .hbm, ⟨80, _⟩ => ⟨S900000x1, .i32⟩
  | .hbm, ⟨81, _⟩ => ⟨S900000x128, .f32⟩
  | .hbm, ⟨82, _⟩ => ⟨S900000x1, .f32⟩
  | .hbm, ⟨83, _⟩ => ⟨S900000x128, .f32⟩
  | .hbm, ⟨84, _⟩ => ⟨S900000x128, .f32⟩
  | .hbm, ⟨85, _⟩ => ⟨S_, .f32⟩
  | .hbm, ⟨86, _⟩ => ⟨S100000x128, .f32⟩
  | .hbm, ⟨87, _⟩ => ⟨S900000x1, .i32⟩
  | .hbm, ⟨88, _⟩ => ⟨S100000x128, .f32⟩
  | .hbm, ⟨89, _⟩ => ⟨S1x128, .f32⟩
  | .hbm, ⟨90, _⟩ => ⟨S100000x128, .f32⟩
  | .hbm, ⟨91, _⟩ => ⟨S100000x128, .f32⟩
  | .hbm, ⟨92, _⟩ => ⟨S_, .i32⟩
  | .hbm, ⟨93, _⟩ => ⟨S900000, .i32⟩
  | .hbm, ⟨94, _⟩ => ⟨S900000, .i1⟩
  | .hbm, ⟨95, _⟩ => ⟨S_, .i32⟩
  | .hbm, ⟨96, _⟩ => ⟨S900000, .i32⟩
  | .hbm, ⟨97, _⟩ => ⟨S900000, .i32⟩
  | .hbm, ⟨98, _⟩ => ⟨S900000, .i32⟩
  | .hbm, ⟨99, _⟩ => ⟨S900000x1, .i32⟩
  | .hbm, ⟨100, _⟩ => ⟨S900000x128, .f32⟩
  | .hbm, ⟨101, _⟩ => ⟨S900000x1, .f32⟩
  | .hbm, ⟨102, _⟩ => ⟨S900000x128, .f32⟩
  | .hbm, ⟨103, _⟩ => ⟨S900000x128, .f32⟩
  | .hbm, ⟨104, _⟩ => ⟨S_, .f32⟩
  | .hbm, ⟨105, _⟩ => ⟨S100000x128, .f32⟩
  | .hbm, ⟨106, _⟩ => ⟨S900000x1, .i32⟩
  | .hbm, ⟨107, _⟩ => ⟨S100000x128, .f32⟩
  | .hbm, ⟨108, _⟩ => ⟨S1x128, .f32⟩
  | .hbm, ⟨109, _⟩ => ⟨S100000x128, .f32⟩
  | .hbm, ⟨110, _⟩ => ⟨S1x64, .f32⟩
  | .hbm, ⟨111, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x64, .f32⟩
  | .local _ .vmem, ⟨33, _⟩ => ⟨S1x64, .f32⟩
  | .local _ .vmem, ⟨34, _⟩ => ⟨S5000x64, .f32⟩
  | .local _ .vmem, ⟨35, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_10 : Ref sig .tc := ⟨.hbm, 73, rfl⟩
abbrev main_v49 : Ref sig .tc := ⟨.hbm, 74, rfl⟩
abbrev main_v50 : Ref sig .tc := ⟨.hbm, 75, rfl⟩
abbrev main_c_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_13 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_15 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v79) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg8) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v80) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v81) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S100000 : Shape := ⟨1, ![100000]⟩
abbrev S900000 : Shape := ⟨1, ![900000]⟩
abbrev S_ : Shape := ⟨0, ![]⟩
abbrev S900000x1 : Shape := ⟨2, ![900000, 1]⟩
abbrev S900000x128 : Shape := ⟨2, ![900000, 128]⟩
abbrev S1x128 : Shape := ⟨2, ![1, 128]⟩
abbrev S100000x64 : Shape := ⟨2, ![100000, 64]⟩
abbrev S1x64 : Shape := ⟨2, ![1, 64]⟩

abbrev nBuf : Space → Nat
  | .hbm => 134
  | .vmem => 0
  | .smem => 0
  | _ => 0

abbrev hbmTy0_0 (i : Nat) : BufTy := match i % 128 with
  | 0 => ⟨S100000x128, .f32⟩
  | 1 => ⟨S2x800000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x800000, .i32⟩
  | 11 => ⟨S800000, .i32⟩
  | 12 => ⟨S1x800000, .i32⟩
  | 13 => ⟨S800000, .i32⟩
  | 14 => ⟨S100000, .i32⟩
  | 15 => ⟨S900000, .i32⟩
  | 16 => ⟨S900000, .i32⟩
  | 17 => ⟨S_, .f32⟩
  | 18 => ⟨S900000, .f32⟩
  | 19 => ⟨S_, .f32⟩
  | 20 => ⟨S100000, .f32⟩
  | 21 => ⟨S900000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S100000, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S900000, .i32⟩
  | 36 => ⟨S900000, .i1⟩
  | 37 => ⟨S_, .i32⟩
  | 38 => ⟨S900000, .i32⟩
  | 39 => ⟨S900000, .i32⟩
  | 40 => ⟨S900000, .i32⟩
  | 41 => ⟨S900000x1, .i32⟩
  | 42 => ⟨S900000, .f32⟩
  | 43 => ⟨S_, .i32⟩
  | 44 => ⟨S900000, .i32⟩
  | 45 => ⟨S900000, .i1⟩
  | 46 => ⟨S_, .i32⟩
  | 47 => ⟨S900000, .i32⟩
  | 48 => ⟨S900000, .i32⟩
  | 49 => ⟨S900000, .i32⟩
  | 50 => ⟨S900000x1, .i32⟩
  | 51 => ⟨S900000, .f32⟩
  | 52 => ⟨S900000, .f32⟩
  | 53 => ⟨S100000x128, .f32⟩
  | 54 => ⟨S_, .i32⟩
  | 55 => ⟨S900000, .i32⟩
  | 56 => ⟨S900000, .i1⟩
  | 57 => ⟨S_, .i32⟩
  | 58 => ⟨S900000, .i32⟩
  | 59 => ⟨S900000, .i32⟩
  | 60 => ⟨S900000, .i32⟩
  | 61 => ⟨S900000x1, .i32⟩
  | 62 => ⟨S900000x128, .f32⟩
  | 63 => ⟨S900000x1, .f32⟩
  | 64 => ⟨S900000x128, .f32⟩
  | 65 => ⟨S900000x128, .f32⟩
  | 66 => ⟨S_, .f32⟩
  | 67 => ⟨S100000x128, .f32⟩
  | 68 => ⟨S900000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S100000x128, .f32⟩
  | 77 => ⟨S_, .i32⟩
  | 78 => ⟨S900000, .i32⟩
  | 79 => ⟨S900000, .i1⟩
  | 80 => ⟨S_, .i32⟩
  | 81 => ⟨S900000, .i32⟩
  | 82 => ⟨S900000, .i32⟩
  | 83 => ⟨S900000, .i32⟩
  | 84 => ⟨S900000x1, .i32⟩
  | 85 => ⟨S900000x128, .f32⟩
  | 86 => ⟨S900000x1, .f32⟩
  | 87 => ⟨S900000x128, .f32⟩
  | 88 => ⟨S900000x128, .f32⟩
  | 89 => ⟨S_, .f32⟩
  | 90 => ⟨S100000x128, .f32⟩
  | 91 => ⟨S900000x1, .i32⟩
  | 92 => ⟨S100000x128, .f32⟩
  | 93 => ⟨S1x128, .f32⟩
  | 94 => ⟨S100000x128, .f32⟩
  | 95 => ⟨S100000x128, .f32⟩
  | 96 => ⟨S_, .f32⟩
  | 97 => ⟨S100000x128, .f32⟩
  | 98 => ⟨S100000x128, .f32⟩
  | 99 => ⟨S100000x128, .f32⟩
  | 100 => ⟨S_, .i32⟩
  | 101 => ⟨S900000, .i32⟩
  | 102 => ⟨S900000, .i1⟩
  | 103 => ⟨S_, .i32⟩
  | 104 => ⟨S900000, .i32⟩
  | 105 => ⟨S900000, .i32⟩
  | 106 => ⟨S900000, .i32⟩
  | 107 => ⟨S900000x1, .i32⟩
  | 108 => ⟨S900000x128, .f32⟩
  | 109 => ⟨S900000x1, .f32⟩
  | 110 => ⟨S900000x128, .f32⟩
  | 111 => ⟨S900000x128, .f32⟩
  | 112 => ⟨S_, .f32⟩
  | 113 => ⟨S100000x128, .f32⟩
  | 114 => ⟨S900000x1, .i32⟩
  | 115 => ⟨S100000x128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S100000x64, .f32⟩
  | 123 => ⟨S1x64, .f32⟩
  | 124 => ⟨S100000x64, .f32⟩
  | 125 => ⟨S100000x64, .f32⟩
  | 126 => ⟨S100000x64, .f32⟩
  | 127 => ⟨S100000x64, .f32⟩
  | _ => ⟨S100000x128, .f32⟩

abbrev hbmTy0_1 (i : Nat) : BufTy := match i % 128 with
  | 0 => ⟨S_, .f32⟩
  | 1 => ⟨S100000x64, .f32⟩
  | 2 => ⟨S100000x64, .f32⟩
  | 3 => ⟨S_, .f32⟩
  | 4 => ⟨S100000x64, .f32⟩
  | 5 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v16 : Ref sig .tc := ⟨.hbm, 33, rfl⟩
abbrev main_c : Ref sig .tc := ⟨.hbm, 34, rfl⟩
abbrev main_v17 : Ref sig .tc := ⟨.hbm, 35, rfl⟩
abbrev main_v18 : Ref sig .tc := ⟨.hbm, 36, rfl⟩
abbrev main_c_4 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_c_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_9 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call1_cst : Ref sig .tc := ⟨.hbm, 73, rfl⟩
abbrev main_call1_v0 : Ref sig .tc := ⟨.hbm, 74, rfl⟩
abbrev main_v49 : Ref sig .tc := ⟨.hbm, 75, rfl⟩
abbrev main_v50 : Ref sig .tc := ⟨.hbm, 76, rfl⟩
abbrev main_c_10 : Ref sig .tc := ⟨.hbm, 77, rfl⟩
abbrev main_v51 : Ref sig .tc := ⟨.hbm, 78, rfl⟩
abbrev main_v52 : Ref sig .tc := ⟨.hbm, 79, rfl⟩
abbrev main_c_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_12 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_call2_cst : Ref sig .tc := ⟨.hbm, 96, rfl⟩
abbrev main_call2_v0 : Ref sig .tc := ⟨.hbm, 97, rfl⟩
abbrev main_v67 : Ref sig .tc := ⟨.hbm, 98, rfl⟩
abbrev main_v68 : Ref sig .tc := ⟨.hbm, 99, rfl⟩
abbrev main_c_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_15 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_call3_cst : Ref sig .tc := ⟨.hbm, 119, rfl⟩
abbrev main_call3_v0 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_16 : Ref sig .tc := ⟨.hbm, 128, rfl⟩
abbrev main_v92 : Ref sig .tc := ⟨.hbm, 129, rfl⟩
abbrev main_v93 : Ref sig .tc := ⟨.hbm, 130, rfl⟩
abbrev main_cst_17 : Ref sig .tc := ⟨.hbm, 131, rfl⟩
abbrev main_v94 : Ref sig .tc := ⟨.hbm, 132, rfl⟩
abbrev main_v95 : Ref sig .tc := ⟨.hbm, 133, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  dot_S100000x128_S128x64_S100000x64_1_0_0_1_n_n_wf : DotDims.WF S100000x128 S128x64 S100000x64 [1] [0] [0] [1] [] []

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.RunNamed.lean ====
/-
  The kernel program's run with its result array named. The program is seven launches among stretches of plain-array
  operations; the buffer contents at each boundary form a chain from the launch memory, and every execution ends with
  every buffer at the last link of that chain. Read at the result array this names the result; read at the ten
  argument arrays it says they end as launched.
-/
import proofs.«122204_j22265110462988_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with the result array at the last link of
    the chain of boundary contents and the argument arrays as launched. -/
theorem run_named : θ_run defs (onTc (τ := τ) (main (F := F))) ⟨m, fun _ => 0, ρ⟩ (fun r => ∀ c : Dev nD,
      r.2.mem ((c.tc : Thread nD τ).loc main_v81) = W14 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v81 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c)⟩)

end Cert.KernelIdeal.Named

end
-- ==== Proof.Kept.lean ====
/-
  Buffers that nothing writes between two boundaries of the program keep their contents. The program's buffer contents
  at its fifteen boundaries form a chain: a stretch of plain-array operations changes only the buffers its operations
  write, and a launch changes only its own arrays. Each lemma here walks one buffer back along the chain: an argument
  array back to the launch memory; the two edge-index vectors (sources and targets with the self-loops appended) and the
  per-edge normalisation weights, which are computed once before the first launch, back to that launch's entry.
-/
import proofs.«122204_j22265110462988_1_alg».proof.Proof.Gen.KernelIdeal.Frame

set_option maxRecDepth 16384

noncomputable section

namespace Cert.KernelIdeal.Kept

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-- The argument array `main_arg0` is as launched at boundary 3. -/
theorem W3_arg0 (c : Dev nD) : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := StableHlo.after_of_forall_not_mem (b := Proc.devRef .tc main_arg0) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- The argument array `main_arg2` is as launched at boundary 3. -/
theorem W3_arg2 (c : Dev nD) : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := StableHlo.after_of_forall_not_mem (b := Proc.devRef .tc main_arg2) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

/-- The argument array `main_arg3` is as launched at boundary 4. -/
theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- The argument array `main_arg4` is as launched at boundary 6. -/
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-- The argument array `main_arg5` is as launched at boundary 7. -/
theorem W7_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := StableHlo.after_of_forall_not_mem (b := Proc.devRef .tc main_arg5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

/-- The argument array `main_arg6` is as launched at boundary 9. -/
theorem W9_arg6 (c : Dev nD) : W9 m ρ c (Proc.devRef .tc main_arg6) = m ((c : Thread nD τ).loc main_arg6) :=
  calc W9 m ρ c (Proc.devRef .tc main_arg6)
    _ = W8 m ρ c (Proc.devRef .tc main_arg6) := W9_of_ne m ρ c main_arg6 (by decide)
    _ = W7 m ρ c (Proc.devRef .tc main_arg6) := StableHlo.after_of_forall_not_mem (b := Proc.devRef .tc main_arg6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg6) := W7_of_ne m ρ c main_arg6 (by decide)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := StableHlo.after_of_forall_not_mem (b := Proc.devRef .tc main_arg6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The argument array `main_arg7` is as launched at boundary 10. -/
theorem W10_arg7 (c : Dev nD) : W10 m ρ c (Proc.devRef .tc main_arg7) = m ((c : Thread nD τ).loc main_arg7) :=
  calc W10 m ρ c (Proc.devRef .tc main_arg7)
    _ = W9 m ρ c (Proc.devRef .tc main_arg7) := W10_of_ne m ρ c main_arg7 (by decide)
    _ = W8 m ρ c (Proc.devRef .tc main_arg7) := W9_of_ne m ρ c main_arg7 (by decide)
    _ = W7 m ρ c (Proc.devRef .tc main_arg7) := StableHlo.after_of_forall_not_mem (b := Proc.devRef .tc main_arg7) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg7) := W7_of_ne m ρ c main_arg7 (by decide)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-- The argument array `main_arg9` is as launched at boundary 12. -/
theorem W12_arg9 (c : Dev nD) : W12 m ρ c (Proc.devRef .tc main_arg9) = m ((c : Thread nD τ).loc main_arg9) :=
  calc W12 m ρ c (Proc.devRef .tc main_arg9)
    _ = W11 m ρ c (Proc.devRef .tc main_arg9) := W12_of_ne m ρ c main_arg9 (by decide)
    _ = W10 m ρ c (Proc.devRef .tc main_arg9) := StableHlo.after_of_forall_not_mem (b := Proc.devRef .tc main_arg9) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg9) := W10_of_ne m ρ c main_arg9 (by decide)
    _ = W8 m ρ c (Proc.devRef .tc main_arg9) := W9_of_ne m ρ c main_arg9 (by decide)
    _ = W7 m ρ c (Proc.devRef .tc main_arg9) := StableHlo.after_of_forall_not_mem (b := Proc.devRef .tc main_arg9) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg9) := W7_of_ne m ρ c main_arg9 (by decide)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := StableHlo.after_of_forall_not_mem (b := Proc.devRef .tc main_arg9) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

/-- The argument array `main_arg8` is as launched at boundary 13. -/
theorem W13_arg8 (c : Dev nD) : W13 m ρ c (Proc.devRef .tc main_arg8) = m ((c : Thread nD τ).loc main_arg8) :=
  calc W13 m ρ c (Proc.devRef .tc main_arg8)
    _ = W12 m ρ c (Proc.devRef .tc main_arg8) := StableHlo.after_of_forall_not_mem (b := Proc.devRef .tc main_arg8) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg8) := W12_of_ne m ρ c main_arg8 (by decide)
    _ = W10 m ρ c (Proc.devRef .tc main_arg8) := StableHlo.after_of_forall_not_mem (b := Proc.devRef .tc main_arg8) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg8) := W10_of_ne m ρ c main_arg8 (by decide)
    _ = W8 m ρ c (Proc.devRef .tc main_arg8) := W9_of_ne m ρ c main_arg8 (by decide)
    _ = W7 m ρ c (Proc.devRef .tc main_arg8) := StableHlo.after_of_forall_not_mem (b := Proc.devRef .tc main_arg8) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_arg8) := W7_of_ne m ρ c main_arg8 (by decide)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := StableHlo.after_of_forall_not_mem (b := Proc.devRef .tc main_arg8) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- `main_v5` at boundary 4 is what it was at the first launch's entry. -/
theorem W4_v5 (c : Dev nD) : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- `main_v5` at boundary 7 is what it was at the first launch's entry. -/
theorem W7_v5 (c : Dev nD) : W7 m ρ c (Proc.devRef .tc main_v5) = W3 m ρ c (Proc.devRef .tc main_v5) :=
  calc W7 m ρ c (Proc.devRef .tc main_v5)
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

/-- `main_v5` at boundary 10 is what it was at the first launch's entry. -/
theorem W10_v5 (c : Dev nD) : W10 m ρ c (Proc.devRef .tc main_v5) = W3 m ρ c (Proc.devRef .tc main_v5) :=
  calc W10 m ρ c (Proc.devRef .tc main_v5)
    _ = W9 m ρ c (Proc.devRef .tc main_v5) := W10_of_ne m ρ c main_v5 (by decide)
    _ = W8 m ρ c (Proc.devRef .tc main_v5) := W9_of_ne m ρ c main_v5 (by decide)
    _ = W7 m ρ c (Proc.devRef .tc main_v5) := StableHlo.after_of_forall_not_mem (b := Proc.devRef .tc main_v5) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v5) := W7_of_ne m ρ c main_v5 (by decide)
    _ = W5 m ρ c (Proc.devRef .tc main_v5) := W6_of_ne m ρ c main_v5 (by decide)
    _ = W4 m ρ c (Proc.devRef .tc main_v5) := StableHlo.after_of_forall_not_mem (b := Proc.devRef .tc main_v5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v5) := W4_of_ne m ρ c main_v5 (by decide)

/-- `main_v6` at boundary 4 is what it was at the first launch's entry. -/
theorem W4_v6 (c : Dev nD) : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` at boundary 7 is what it was at the first launch's entry. -/
theorem W7_v6 (c : Dev nD) : W7 m ρ c (Proc.devRef .tc main_v6) = W3 m ρ c (Proc.devRef .tc main_v6) :=
  calc W7 m ρ c (Proc.devRef .tc main_v6)
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- `main_v6` at boundary 10 is what it was at the first launch's entry. -/
theorem W10_v6 (c : Dev nD) : W10 m ρ c (Proc.devRef .tc main_v6) = W3 m ρ c (Proc.devRef .tc main_v6) :=
  calc W10 m ρ c (Proc.devRef .tc main_v6)
    _ = W9 m ρ c (Proc.devRef .tc main_v6) := W10_of_ne m ρ c main_v6 (by decide)
    _ = W8 m ρ c (Proc.devRef .tc main_v6) := W9_of_ne m ρ c main_v6 (by decide)
    _ = W7 m ρ c (Proc.devRef .tc main_v6) := StableHlo.after_of_forall_not_mem (b := Proc.devRef .tc main_v6) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v6) := W7_of_ne m ρ c main_v6 (by decide)
    _ = W5 m ρ c (Proc.devRef .tc main_v6) := W6_of_ne m ρ c main_v6 (by decide)
    _ = W4 m ρ c (Proc.devRef .tc main_v6) := StableHlo.after_of_forall_not_mem (b := Proc.devRef .tc main_v6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v6) := W4_of_ne m ρ c main_v6 (by decide)

/-- `main_v31` at boundary 4 is what it was at the first launch's entry. -/
theorem W4_v31 (c : Dev nD) : W4 m ρ c (Proc.devRef .tc main_v31) = W3 m ρ c (Proc.devRef .tc main_v31) :=
  calc W4 m ρ c (Proc.devRef .tc main_v31)
    _ = W3 m ρ c (Proc.devRef .tc main_v31) := W4_of_ne m ρ c main_v31 (by decide)

/-- `main_v31` at boundary 7 is what it was at the first launch's entry. -/
theorem W7_v31 (c : Dev nD) : W7 m ρ c (Proc.devRef .tc main_v31) = W3 m ρ c (Proc.devRef .tc main_v31) :=
  calc W7 m ρ c (Proc.devRef .tc main_v31)
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

/-- `main_v31` at boundary 10 is what it was at the first launch's entry. -/
theorem W10_v31 (c : Dev nD) : W10 m ρ c (Proc.devRef .tc main_v31) = W3 m ρ c (Proc.devRef .tc main_v31) :=
  calc W10 m ρ c (Proc.devRef .tc main_v31)
    _ = W9 m ρ c (Proc.devRef .tc main_v31) := W10_of_ne m ρ c main_v31 (by decide)
    _ = W8 m ρ c (Proc.devRef .tc main_v31) := W9_of_ne m ρ c main_v31 (by decide)
    _ = W7 m ρ c (Proc.devRef .tc main_v31) := StableHlo.after_of_forall_not_mem (b := Proc.devRef .tc main_v31) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v31) := W7_of_ne m ρ c main_v31 (by decide)
    _ = W5 m ρ c (Proc.devRef .tc main_v31) := W6_of_ne m ρ c main_v31 (by decide)
    _ = W4 m ρ c (Proc.devRef .tc main_v31) := StableHlo.after_of_forall_not_mem (b := Proc.devRef .tc main_v31) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v31) := W4_of_ne m ρ c main_v31 (by decide)

/-- The last hidden matrix is untouched by the reshape of the output bias. -/
theorem W13_v79 (c : Dev nD) : W13 m ρ c (Proc.devRef .tc main_v79) = W12 m ρ c (Proc.devRef .tc main_v79) :=
  calc W13 m ρ c (Proc.devRef .tc main_v79)
    _ = W12 m ρ c (Proc.devRef .tc main_v79) := StableHlo.after_of_forall_not_mem (b := Proc.devRef .tc main_v79) _ _ (List.forall_iff_forall_mem.mp (by
          simp only [hostOps6, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

end Cert.KernelIdeal.Kept

end
-- ==== Proof.LibStretch.lean ====
/-
  Two general facts about a straight line of host operations, for any program.

  * `after_append`: the buffer contents after two stretches of operations run one after the other are the second
    stretch's fold over the first's — so a long line is read back stretch by stretch, each stretch from whatever
    contents it finds.
  * `ofBuf_toBuf`: a value carried to the type of the buffer a typed reference names and back again is the value;
    the operations of an inlined call write and read their buffers through exactly these two transports, so every
    value that passes from one such operation to the next comes through unchanged. (A value that enters such an
    operation from a plain buffer, or leaves the last one, passes ONE transport: it is removed by
    `eq_of_heq (cast_heq _ _)`, the two types being the same once the reference's type is computed.)
-/
import Idealize.ShloMosaic.Lib.StableHlo.Run

noncomputable section

namespace Cert.LibStretch

open Idealize.ShloMosaic Idealize.ShloMosaic.StableHlo

variable {τ : Topo} {sig : RefSig} {Val : EltTy → Type}

/-- Two stretches one after the other. -/
theorem after_append (l1 l2 : List (HloOp τ sig Val)) (V : Valuation τ sig Val) :
    after (l1 ++ l2) V = after l2 (after l1 V) := by
  induction l1 generalizing V with
  | nil => rfl
  | cons a l ih => exact ih _

/-- Contents carried to a buffer's own type and back are the contents. -/
theorem ofBuf_toBuf {T : BufTy} (x : TRef sig T) (v : T.Contents Val) : x.ofBuf (x.toBuf v) = v := by
  obtain ⟨r, h, h1, h2⟩ := x
  subst h
  rfl

end Cert.LibStretch

end
-- ==== Proof.Prefix.lean ====
/-
  What the program has computed before its first launch, as functions of the edge-index argument: the source and target
  vectors with the 100000 self-loops appended, and the per-edge normalisation weight (the product of the inverse square
  roots of the two endpoint degrees, a degree being the number of edges into a node, self-loop included, and the inverse
  square root taken of the degree raised to at least one). The three stretches of plain-array operations before the first
  launch are the other program's first operations, one for one, so each of these buffers holds that program's value of the
  same name. The stretches are read one at a time: the degrees' inverse square roots and the positivity mask after the
  first, their selection after the second, the per-edge products after the third.
-/
import proofs.«122204_j22265110462988_1_alg».proof.Proof.Gen.KernelIdeal.Frame
import proofs.«122204_j22265110462988_1_alg».proof.Proof.RefRead
import proofs.«122204_j22265110462988_1_alg».proof.Proof.LibStretch

set_option maxRecDepth 16384

noncomputable section

namespace Cert.KernelIdeal.Prefix

open Cert.KernelIdeal Cert.KernelIdeal.Gen Cert.KernelIdeal.Facts₀ Cert.KernelIdeal.Facts
open Idealize.ShloMosaic Idealize.ShloMosaic.TcCoe Idealize.ShloMosaic.StableHlo Idealize.SL.Sem

open Cert.ReferenceIdeal.ReadP (val_main_v5 val_main_v6 val_main_v12 val_main_v15 val_main_cst_3 val_main_v16 val_main_v31)

variable (m : (ℓ : Loc nD τ sig) → Buf (Elt Ideal) ℓ) (ρ : Dev nD → PrngReg)

/-- The source vector with the self-loops appended, after the first stretch. -/
theorem W1_v5 (c : Dev nD) :
    W1 m ρ c (Proc.devRef .tc main_v5) = val_main_v5 (F := Ideal) (m ((c : Thread nD τ).loc main_arg1)) := by
  show StableHlo.after hostOps0 (W0 m ρ c) (Proc.devRef .tc main_v5) = _
  simp only [hostOps0]
  after_results
  rfl

/-- The target vector with the self-loops appended, after the first stretch. -/
theorem W1_v6 (c : Dev nD) :
    W1 m ρ c (Proc.devRef .tc main_v6) = val_main_v6 (F := Ideal) (m ((c : Thread nD τ).loc main_arg1)) := by
  show StableHlo.after hostOps0 (W0 m ρ c) (Proc.devRef .tc main_v6) = _
  simp only [hostOps0]
  after_results
  rfl

/-- Which nodes have a positive degree. -/
theorem W1_v12 (c : Dev nD) :
    W1 m ρ c (Proc.devRef .tc main_v12) = val_main_v12 (F := Ideal) (m ((c : Thread nD τ).loc main_arg1)) := by
  show StableHlo.after hostOps0 (W0 m ρ c) (Proc.devRef .tc main_v12) = _
  simp only [hostOps0]
  after_results
  rfl

/-- The inverse square root of each degree raised to at least one. -/
theorem W1_v15 (c : Dev nD) :
    W1 m ρ c (Proc.devRef .tc main_v15) = val_main_v15 (F := Ideal) (m ((c : Thread nD τ).loc main_arg1)) := by
  show StableHlo.after hostOps0 (W0 m ρ c) (Proc.devRef .tc main_v15) = _
  simp only [hostOps0]
  after_results
  rfl

/-- The zero that stands in for a node without incoming edges. -/
theorem W1_cst_3 (c : Dev nD) :
    W1 m ρ c (Proc.devRef .tc main_cst_3) = val_main_cst_3 (F := Ideal) := by
  show StableHlo.after hostOps0 (W0 m ρ c) (Proc.devRef .tc main_cst_3) = _
  simp only [hostOps0]
  after_results
  rfl

/-- Each node's normalisation factor: the inverse square root where the degree is positive, zero elsewhere. -/
theorem W2_v16 (c : Dev nD) :
    W2 m ρ c (Proc.devRef .tc main_v16) = val_main_v16 (F := Ideal) (m ((c : Thread nD τ).loc main_arg1)) := by
  have e12 := W1_v12 m ρ c
  have e15 := W1_v15 m ρ c
  have e3 := W1_cst_3 m ρ c
  show StableHlo.after hostOps0_1 (W1 m ρ c) (Proc.devRef .tc main_v16) = _
  generalize W1 m ρ c = V1 at e12 e15 e3 ⊢
  simp only [hostOps0_1]
  after_results
  -- the inlined call reads and writes its buffers through transports along "this buffer has this type"; a transport
  -- is heterogeneously equal to what it transports, and a transport there and back cancels
  have f12 : (TRef.of main_v12 : TRef sig ⟨S100000, .i1⟩).ofBuf (V1 (Proc.devRef .tc main_v12))
      = val_main_v12 (F := Ideal) (m ((c : Thread nD τ).loc main_arg1)) := eq_of_heq ((cast_heq _ _).trans (heq_of_eq e12))
  have f15 : (TRef.of main_v15 : TRef sig ⟨S100000, .f32⟩).ofBuf (V1 (Proc.devRef .tc main_v15))
      = val_main_v15 (F := Ideal) (m ((c : Thread nD τ).loc main_arg1)) := eq_of_heq ((cast_heq _ _).trans (heq_of_eq e15))
  have f3 : (TRef.of main_cst_3 : TRef sig ⟨S_, .f32⟩).ofBuf (V1 (Proc.devRef .tc main_cst_3))
      = val_main_cst_3 (F := Ideal) := eq_of_heq ((cast_heq _ _).trans (heq_of_eq e3))
  rw [f12, f15, f3]
  simp only [Cert.LibStretch.ofBuf_toBuf]
  refine eq_of_heq ((cast_heq _ _).trans (heq_of_eq ?_))
  rfl

/-- The second stretch does not write `main_v5`. -/
theorem W2_v5 (c : Dev nD) : W2 m ρ c (Proc.devRef .tc main_v5) = W1 m ρ c (Proc.devRef .tc main_v5) :=
  StableHlo.after_of_forall_not_mem (b := Proc.devRef .tc main_v5) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third stretch does not write `main_v5`. -/
theorem W3_v5_kept (c : Dev nD) : W3 m ρ c (Proc.devRef .tc main_v5) = W2 m ρ c (Proc.devRef .tc main_v5) :=
  StableHlo.after_of_forall_not_mem (b := Proc.devRef .tc main_v5) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v5` at the first launch's entry. -/
theorem W3_v5 (c : Dev nD) :
    W3 m ρ c (Proc.devRef .tc main_v5) = val_main_v5 (F := Ideal) (m ((c : Thread nD τ).loc main_arg1)) :=
  (W3_v5_kept m ρ c).trans ((W2_v5 m ρ c).trans (W1_v5 m ρ c))

/-- The second stretch does not write `main_v6`. -/
theorem W2_v6 (c : Dev nD) : W2 m ρ c (Proc.devRef .tc main_v6) = W1 m ρ c (Proc.devRef .tc main_v6) :=
  StableHlo.after_of_forall_not_mem (b := Proc.devRef .tc main_v6) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- The third stretch does not write `main_v6`. -/
theorem W3_v6_kept (c : Dev nD) : W3 m ρ c (Proc.devRef .tc main_v6) = W2 m ρ c (Proc.devRef .tc main_v6) :=
  StableHlo.after_of_forall_not_mem (b := Proc.devRef .tc main_v6) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- `main_v6` at the first launch's entry. -/
theorem W3_v6 (c : Dev nD) :
    W3 m ρ c (Proc.devRef .tc main_v6) = val_main_v6 (F := Ideal) (m ((c : Thread nD τ).loc main_arg1)) :=
  (W3_v6_kept m ρ c).trans ((W2_v6 m ρ c).trans (W1_v6 m ρ c))

set_option maxHeartbeats 2000000 in
/-- The per-edge normalisation weights, at the first launch's entry. -/
theorem W3_v31 (c : Dev nD) :
    W3 m ρ c (Proc.devRef .tc main_v31) = val_main_v31 (F := Ideal) (m ((c : Thread nD τ).loc main_arg1)) := by
  have e16 := W2_v16 m ρ c
  have e5 := (W2_v5 m ρ c).trans (W1_v5 m ρ c)
  have e6 := (W2_v6 m ρ c).trans (W1_v6 m ρ c)
  show StableHlo.after hostOps0_2 (W2 m ρ c) (Proc.devRef .tc main_v31) = _
  generalize W2 m ρ c = V2 at e16 e5 e6 ⊢
  simp only [hostOps0_2]
  after_results
  rw [e16, e5, e6]
  rfl

end Cert.KernelIdeal.Prefix

end
-- ==== Proof.LibRowMax.lean ====
/-
  Reading a "subtract the column maximum" expression over a matrix at an index given by its coordinates, for any
  extents a × b.

  * The index over the column coordinate `q` with row coordinate `k` inserted on the first axis is `(k, q)`; hence, on
    the extended reals, a vector maximum along the FIRST axis of an `[a, b]` matrix is the fold of `max` over the row
    coordinate, and the host's maximum along the first axis is the same fold from its initial value; the vector maxima
    kept as a row `[1, b]` and broadcast down the rows again read the column's maximum at every row.
  * The host's keepdims forms: a `[b]` vector placed as the one row of `[1, b]`, that row broadcast down `a` rows, and
    a column `[a, 1]` broadcast across `b` columns.
  * A plain matrix product `[a, k] × [k, b] → [a, b]` (the left operand's last axis contracted with the right
    operand's first): its sum over the contraction index is the sum over `e : Fin k` of `lhs (i, e) * rhs (e, j)`, for
    the vector unit's product into a zero accumulator and for the host's.
-/
import Idealize.ShloMosaic.Lib.ValueLayout
import Idealize.ShloMosaic.Lib.Pipeline.Value
import Idealize.ShloMosaic.PureOps.Ideal.Laws

noncomputable section

namespace Cert.LibRowMax

open Idealize.ShloMosaic Idealize.ShloMosaic.ValueIdx

variable {α : Type} {a b : ℕ}

/-! ## The maximum along the first axis -/

/-- Over the column coordinate `q`, with `k` inserted on the first axis: `(k, q)`. -/
theorem lift_first (h : (⟨2, ![a, b]⟩ : Shape).Reduces [0] ⟨1, ![b]⟩) (q : Fin b) (k : Fin a) :
    h.lift (ix1 q) k = ix2 k q := by
  funext ax
  apply Fin.ext
  match ax with
  | ⟨0, _⟩ => rfl
  | ⟨1, _⟩ => rfl

variable {φ : FTy}

/-- A vector maximum along the first axis, at column `q`: the fold of `max` from the accumulator's value over the rows. -/
theorem multiReduction_max_first (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (q : Fin b) :
    multiReduction .maximumf [0] ⟨1, ![b]⟩ src acc h hφ hacc (ix1 q)
      = (Finset.univ : Finset (Fin a)).fold max (Ideal.ofBits φ acc) fun k => src (ix2 k q) := by
  refine (Ideal.multiReduction_maximumf_single src acc h hφ hacc (ix1 q)).trans ?_
  refine congrArg (Finset.fold max (Ideal.ofBits φ acc) · Finset.univ) (funext fun k => ?_)
  exact congrArg src (lift_first h q k)

/-- The host's maximum along the first axis, at column `q`: the fold of `max` from the initial value over the rows. -/
theorem hostReduce_max_first {u : Shape} (x : (⟨2, ![a, b]⟩ : Shape).Idx → Ideal φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) := by
  refine (Host.reduce_eq_fold_single (FloatOps.maximumf (F := Ideal) (φ := φ)) x init h' h hu (ix1 q)).trans ?_
  refine congrArg (Finset.fold max (init (Shape.Idx.first hu)) · Finset.univ) (funext fun k => ?_)
  exact congrArg x (lift_first h q k)

/-- The column maxima kept as one row `[1, b]` and broadcast down `a` rows again read, at `(p, q)`, the maximum of
    column `q`. -/
theorem colMax_broadcastTo_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ (multiReduction .maximumf [0] ⟨1, ![b]⟩ src acc h hφ hacc) hc) hb (ix2 p q)
      = (Finset.univ : Finset (Fin a)).fold max (Ideal.ofBits φ acc) fun k => src (ix2 k q) :=
  (broadcastTo_1b_ab_apply _ hb p q).trans
    ((shapeCast_a_1a_apply _ hc (0 : Fin 1) q).trans (multiReduction_max_first src acc h hφ hacc q))

/-! ## The host's keepdims forms -/

/-- A `[b]` vector placed as the row of `[1, b]` reads, at `(u, q)`, the vector at `q`. -/
theorem broadcastInDim_b_1b_apply (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A `[1, b]` row broadcast down `a` rows reads, at `(p, q)`, the row at `q`. -/
theorem broadcastInDim_1b_ab_apply (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show 0 = if (1 : ℕ) = 1 then 0 else p.val
    rw [if_pos rfl]
  | ⟨1, _⟩ =>
    show q.val = if b = 1 then 0 else q.val
    split
    · have := q.isLt; omega
    · rfl

/-- An `[a, 1]` column broadcast across `b` columns reads, at `(p, q)`, the column's entry in row `p`. -/
theorem broadcastInDim_a1_ab_apply (v : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h v (ix2 p q) = v (ix2 p (0 : Fin 1)) := by
  refine broadcastInDim_apply _ h v (ix2 p q) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else q.val
    rw [if_pos rfl]

/-! ## A plain matrix product -/

variable {k : ℕ}

/-- The dimension numbers of a plain product `[a, k] × [k, b] → [a, b]`: no batch axis, the left operand's last axis
    contracted with the right operand's first. -/
abbrev plainDims (a k b : ℕ)
    (wf : DotDims.WF ⟨2, ![a, k]⟩ ⟨2, ![k, b]⟩ ⟨2, ![a, b]⟩ [1] [0] [0] [1] [] []) :
    DotDims ⟨2, ![a, k]⟩ ⟨2, ![k, b]⟩ ⟨2, ![a, b]⟩ where
  lhsContracting := [1]
  rhsContracting := [0]
  lhsNonContracting := [0]
  rhsNonContracting := [1]
  lhsBatch := []
  rhsBatch := []
  wf := wf

/-- The left operand's index at output `(i, j)` and contraction coordinate `e` is `(i, e)`. -/
theorem plain_lhsIdx (wf : DotDims.WF ⟨2, ![a, k]⟩ ⟨2, ![k, b]⟩ ⟨2, ![a, b]⟩ [1] [0] [0] [1] [] [])
    (i : Fin a) (j : Fin b) (e : Fin k) :
    (plainDims a k b wf).lhsIdx (ix2 i j) ((contrEquiv1 (plainDims a k b wf) k rfl rfl).symm e) = ix2 i e := by
  funext ax
  apply Fin.ext
  match ax with
  | ⟨0, _⟩ => rfl
  | ⟨1, _⟩ =>
    exact ((plainDims a k b wf).lhsIdx_val_of_single rfl (ix2 i j) _).trans
      (contrEquiv1_symm_val (plainDims a k b wf) k rfl rfl e)

/-- The right operand's index at output `(i, j)` and contraction coordinate `e` is `(e, j)`. -/
theorem plain_rhsIdx (wf : DotDims.WF ⟨2, ![a, k]⟩ ⟨2, ![k, b]⟩ ⟨2, ![a, b]⟩ [1] [0] [0] [1] [] [])
    (i : Fin a) (j : Fin b) (e : Fin k) :
    (plainDims a k b wf).rhsIdx (ix2 i j) ((contrEquiv1 (plainDims a k b wf) k rfl rfl).symm e) = ix2 e j := by
  funext ax
  apply Fin.ext
  match ax with
  | ⟨0, _⟩ =>
    exact ((plainDims a k b wf).rhsIdx_val_of_single rfl (ix2 i j) _).trans
      (contrEquiv1_symm_val (plainDims a k b wf) k rfl rfl e)
  | ⟨1, _⟩ => rfl

/-- The contraction's sum of products, over the contracted coordinate. -/
theorem plain_sum (wf : DotDims.WF ⟨2, ![a, k]⟩ ⟨2, ![k, b]⟩ ⟨2, ![a, b]⟩ [1] [0] [0] [1] [] [])
    (lhs : (⟨2, ![a, k]⟩ : Shape).Idx → EReal) (rhs : (⟨2, ![k, b]⟩ : Shape).Idx → EReal) (i : Fin a) (j : Fin b) :
    ∑ kk : (plainDims a k b wf).contr.Idx,
        lhs ((plainDims a k b wf).lhsIdx (ix2 i j) kk) * rhs ((plainDims a k b wf).rhsIdx (ix2 i j) kk)
      = ∑ e : Fin k, lhs (ix2 i e) * rhs (ix2 e j) := by
  rw [← Equiv.sum_comp (contrEquiv1 (plainDims a k b wf) k rfl rfl).symm]
  refine Finset.sum_congr rfl fun e _ => ?_
  rw [plain_lhsIdx wf i j e, plain_rhsIdx wf i j e]

/-- The vector unit's plain product into a zero accumulator, at `(i, j)`: the sum over `e` of `lhs (i, e) * rhs (e, j)`. -/
theorem matmul_plain_apply {φ₁ φ₂ : FTy} (wf : DotDims.WF ⟨2, ![a, k]⟩ ⟨2, ![k, b]⟩ ⟨2, ![a, b]⟩ [1] [0] [0] [1] [] [])
    (prec : Option ContractPrecision) (lhs : FVec Ideal ⟨2, ![a, k]⟩ φ₁) (rhs : FVec Ideal ⟨2, ![k, b]⟩ φ₂)
    (i : Fin a) (j : Fin b) :
    FloatOps.matmul (plainDims a k b wf) prec lhs rhs (constant ⟨2, ![a, b]⟩ .f32 0x00000000#32) (ix2 i j)
      = ∑ e : Fin k, lhs (ix2 i e) * rhs (ix2 e j) :=
  (Ideal.matmul_constant_zero_apply (plainDims a k b wf) prec lhs rhs (ix2 i j)).trans (plain_sum wf lhs rhs i j)

/-- The host's plain product, at `(i, j)`: the same sum. -/
theorem dotGeneral_plain_apply {φ₁ φ₂ : FTy} (wf : DotDims.WF ⟨2, ![a, k]⟩ ⟨2, ![k, b]⟩ ⟨2, ![a, b]⟩ [1] [0] [0] [1] [] [])
    (prec : Option ContractPrecision) (sched : HostSchedule) (lhs : FVec Ideal ⟨2, ![a, k]⟩ φ₁)
    (rhs : FVec Ideal ⟨2, ![k, b]⟩ φ₂) (i : Fin a) (j : Fin b) :
    FloatOps.dotGeneral (plainDims a k b wf) prec sched lhs rhs (ix2 i j)
      = ∑ e : Fin k, lhs (ix2 i e) * rhs (ix2 e j) :=
  (Ideal.dotGeneral_apply (plainDims a k b wf) prec sched lhs rhs (ix2 i j)).trans (plain_sum wf lhs rhs i j)

end Cert.LibRowMax

end
-- ==== Proof.LibBiasRow.lean ====
/-
  A bias row added to a matrix, with or without a clamp at zero, read at an entry given by its coordinates, for any
  extents a × b, on the extended reals, in the two spellings programs print.

  * The vector unit's: the matrix and a `[1, b]` row come through identity casts, the row is broadcast down the `a`
    rows and added; the clamp is the maximum with a splat of the zero word.
  * The host's: a `[1, b]` row broadcast down the `a` rows (`broadcast_in_dim` over both axes) and added; the clamp is
    the maximum with the zero word broadcast from a scalar.
  * A `[b]` vector reshaped to the row `[1, b]` is that vector placed as the row by `broadcast_in_dim`.
  Nothing is rearranged, so nothing needs finiteness.
-/
import proofs.«122204_j22265110462988_1_alg».proof.Proof.LibRowMax
import Idealize.ShloMosaic.Lib.ValueLayout
import Idealize.ShloMosaic.Lib.Pipeline.Value
import Idealize.ShloMosaic.PureOps.Ideal.Laws

noncomputable section

namespace Cert.LibBiasRow

open Idealize.ShloMosaic Idealize.ShloMosaic.ValueIdx Cert.LibRowMax

variable {α : Type} {a b : ℕ}

/-- The host's zero matrix (the zero word broadcast from a scalar) reads the zero word at every entry. -/
theorem host_zero_apply (h0 : (⟨0, ![]⟩ : Shape).BroadcastsInDim ⟨2, ![a, b]⟩ ![]) (p : Fin a) (q : Fin b) :
    broadcastInDim ⟨2, ![a, b]⟩ ![] h0 (constant (F := Ideal) ⟨0, ![]⟩ .f32 0x00000000#32) (ix2 p q)
      = Ideal.ofBits .f32 0x00000000#32 :=
  broadcastInDim_apply _ h0 _ (ix2 p q) ix0 (fun ax => ax.elim0)

/-- The vector unit's bias row added to a matrix, at `(p, q)`. -/
theorem vector_bias_apply (y : FVec Ideal ⟨2, ![a, b]⟩ .f32) (β : FVec Ideal ⟨2, ![1, b]⟩ .f32)
    (hβ : (⟨2, ![1, b]⟩ : Shape).ShapeCasts ⟨2, ![1, b]⟩) (hbc : (⟨2, ![1, b]⟩ : Shape).Broadcasts ⟨2, ![a, b]⟩)
    (p : Fin a) (q : Fin b) :
    addf y (broadcastTo ⟨2, ![a, b]⟩ (shapeCast ⟨2, ![1, b]⟩ β hβ) hbc) (ix2 p q) = y (ix2 p q) + β (ix2 (0 : Fin 1) q) := by
  rw [shapeCast_self]
  show y (ix2 p q) + broadcastTo ⟨2, ![a, b]⟩ β hbc (ix2 p q) = _
  rw [broadcastTo_1b_ab_apply β hbc p q]

/-- The vector unit's bias row added to a matrix and clamped at zero, at `(p, q)`. -/
theorem vector_bias_clamp_apply (x : FVec Ideal ⟨2, ![a, b]⟩ .f32) (β : FVec Ideal ⟨2, ![1, b]⟩ .f32)
    (hx : (⟨2, ![a, b]⟩ : Shape).ShapeCasts ⟨2, ![a, b]⟩)
    (hβ : (⟨2, ![1, b]⟩ : Shape).ShapeCasts ⟨2, ![1, b]⟩) (hbc : (⟨2, ![1, b]⟩ : Shape).Broadcasts ⟨2, ![a, b]⟩)
    (p : Fin a) (q : Fin b) :
    maximumf (addf (shapeCast ⟨2, ![a, b]⟩ x hx) (broadcastTo ⟨2, ![a, b]⟩ (shapeCast ⟨2, ![1, b]⟩ β hβ) hbc))
        (broadcast ⟨2, ![a, b]⟩ (Scalar.ofBits (F := Ideal) .f32 0x00000000#32)) (ix2 p q)
      = max (x (ix2 p q) + β (ix2 (0 : Fin 1) q)) (Ideal.ofBits .f32 0x00000000#32) := by
  rw [shapeCast_self, shapeCast_self]
  show max (x (ix2 p q) + broadcastTo ⟨2, ![a, b]⟩ β hbc (ix2 p q)) (Ideal.ofBits .f32 0x00000000#32) = _
  rw [broadcastTo_1b_ab_apply β hbc p q]

/-- The host's bias row added to a matrix, at `(p, q)`. -/
theorem host_bias_apply (Y : FVec Ideal ⟨2, ![a, b]⟩ .f32) (β : FVec Ideal ⟨2, ![1, b]⟩ .f32)
    (h2 : (⟨2, ![1, b]⟩ : Shape).BroadcastsInDim ⟨2, ![a, b]⟩ ![0, 1]) (p : Fin a) (q : Fin b) :
    addf Y (broadcastInDim ⟨2, ![a, b]⟩ ![0, 1] h2 β) (ix2 p q) = Y (ix2 p q) + β (ix2 (0 : Fin 1) q) := by
  show Y (ix2 p q) + broadcastInDim ⟨2, ![a, b]⟩ ![0, 1] h2 β (ix2 p q) = _
  rw [broadcastInDim_1b_ab_apply β h2 p q]

/-- The host's bias row added to a matrix and clamped at zero, at `(p, q)`. -/
theorem host_bias_clamp_apply (X : FVec Ideal ⟨2, ![a, b]⟩ .f32) (β : FVec Ideal ⟨2, ![1, b]⟩ .f32)
    (h2 : (⟨2, ![1, b]⟩ : Shape).BroadcastsInDim ⟨2, ![a, b]⟩ ![0, 1])
    (h0 : (⟨0, ![]⟩ : Shape).BroadcastsInDim ⟨2, ![a, b]⟩ ![]) (p : Fin a) (q : Fin b) :
    maximumf (addf X (broadcastInDim ⟨2, ![a, b]⟩ ![0, 1] h2 β))
        (broadcastInDim ⟨2, ![a, b]⟩ ![] h0 (constant (F := Ideal) ⟨0, ![]⟩ .f32 0x00000000#32)) (ix2 p q)
      = max (X (ix2 p q) + β (ix2 (0 : Fin 1) q)) (Ideal.ofBits .f32 0x00000000#32) := by
  show max (X (ix2 p q) + broadcastInDim ⟨2, ![a, b]⟩ ![0, 1] h2 β (ix2 p q))
      (broadcastInDim ⟨2, ![a, b]⟩ ![] h0 (constant (F := Ideal) ⟨0, ![]⟩ .f32 0x00000000#32) (ix2 p q)) = _
  rw [host_zero_apply h0 p q, broadcastInDim_1b_ab_apply β h2 p q]

/-- A `[b]` vector reshaped to the row `[1, b]` is the vector placed as that row. -/
theorem shapeCast_row_eq (v : (⟨1, ![b]⟩ : Shape).Idx → α) (hc : (⟨1, ![b]⟩ : Shape).ShapeCasts ⟨2, ![1, b]⟩)
    (h : (⟨1, ![b]⟩ : Shape).BroadcastsInDim ⟨2, ![1, b]⟩ ![1]) :
    shapeCast ⟨2, ![1, b]⟩ v hc = broadcastInDim ⟨2, ![1, b]⟩ ![1] h v := by
  funext j
  obtain ⟨u, q, rfl⟩ : ∃ (u : Fin 1) (q : Fin b), j = ix2 u q := ⟨j 0, j 1, eq_ix2 j⟩
  rw [broadcastInDim_b_1b_apply v h u q]
  exact shapeCast_a_1a_apply v hc u q

end Cert.LibBiasRow

end
-- ==== Proof.RefOps.lean ====
/-
  The three dense operations of the graph network, in the spelling the plain-array program uses, each read at an
  entry given by its row `r` and column `q`, on the extended reals.

  * `dense X W` — the feature transform `X · W`: entry `(r, q)` is the sum over the 128 inner coordinates `e`
    of `X (r, e) · W (e, q)`.
  * `biasClamp A β` — a bias row added to every row of `A`, then clamped at zero: `max (A (r, q) + β (0, q)) 0`.
  * `head H W β` — the output layer: the logistic function of `(H · W) (r, q) + β (0, q)`, where the program
    spells the logistic function as `1 / (1 + exp (−z))` with both ones the f32 literal for one.
  No term is rearranged, so nothing here needs the inputs to be finite.
-/
import proofs.«122204_j22265110462988_1_alg».proof.Proof.Gen.ReferenceIdeal
import proofs.«122204_j22265110462988_1_alg».proof.Proof.LibBiasRow
import Idealize.ShloMosaic.Lib.IdealHost

noncomputable section

namespace Cert.GcnOps

open Cert.ReferenceIdeal Cert.ReferenceIdeal.Facts₀ Cert.ReferenceIdeal.Facts
open Idealize.ShloMosaic Idealize.ShloMosaic.ValueIdx

/-- The feature transform `X · W` of a `[100000, 128]` matrix by a `[128, 128]` one. -/
def dense (X : FVec Ideal S100000x128 .f32) (W : FVec Ideal S128x128 .f32) : FVec Ideal S100000x128 .f32 :=
  Host.dotGeneral dot_S100000x128_S128x128_S100000x128_1_0_0_1_n_n none X W

/-- Entry `(r, q)` of `X · W` is the sum over the inner coordinate. -/
theorem dense_apply (X : FVec Ideal S100000x128 .f32) (W : FVec Ideal S128x128 .f32) (r : Fin 100000) (q : Fin 128) :
    dense X W (ix2 r q) = ∑ e : Fin 128, X (ix2 r e) * W (ix2 e q) := by
  unfold dense
  simp only [Host.dotGeneral]
  exact Cert.LibRowMax.dotGeneral_plain_apply dot_S100000x128_S128x128_S100000x128_1_0_0_1_n_n.wf _ _ X W r q

/-- A bias row added to every row and clamped at zero. -/
def biasClamp (A : FVec Ideal S100000x128 .f32) (β : FVec Ideal S1x128 .f32) : FVec Ideal S100000x128 .f32 :=
  maximumf (addf A (broadcastInDim S100000x128 ![0, 1] bcast_S1x128_S100000x128_0_1 β))
    (broadcastInDim S100000x128 ![] bcast_S_S100000x128 (constant (F := Ideal) S_ .f32 0x00000000#32))

/-- Entry `(r, q)` of the clamped sum. -/
theorem biasClamp_apply (A : FVec Ideal S100000x128 .f32) (β : FVec Ideal S1x128 .f32) (r : Fin 100000) (q : Fin 128) :
    biasClamp A β (ix2 r q) = max (A (ix2 r q) + β (ix2 (0 : Fin 1) q)) (Ideal.ofBits .f32 0x00000000#32) :=
  Cert.LibBiasRow.host_bias_clamp_apply A β bcast_S1x128_S100000x128_0_1 bcast_S_S100000x128 r q

/-- The logistic function in the expanded spelling, with both ones the f32 literal for one: that literal is the
    number one, and the negation, exponential, sum and quotient are the extended reals' own. -/
theorem logistic_expanded (z : Ideal .f32) :
    FloatOps.hostDivf (FloatOps.ofBits .f32 0x3F800000#32)
      (FloatOps.addf (FloatOps.ofBits .f32 0x3F800000#32) (FloatOps.hostUnary .exp (FloatOps.hostNegf z)))
      = Ideal.logistic z := by
  show Ideal.div (Ideal.ofBits .f32 0x3F800000#32) (Ideal.ofBits .f32 0x3F800000#32 + Ideal.exp (-z))
    = Ideal.div 1 (1 + Ideal.exp (-z))
  rw [Ideal.ofBits_one_f32]

/-- The output layer: `1 / (1 + exp (−(H · W + bias row)))`. -/
def head (H : FVec Ideal S100000x128 .f32) (W : FVec Ideal S128x64 .f32) (β : FVec Ideal S1x64 .f32) :
    FVec Ideal S100000x64 .f32 :=
  Host.divf (broadcastInDim S100000x64 ![] bcast_S_S100000x64 (constant (F := Ideal) S_ .f32 0x3F800000#32))
    (addf (broadcastInDim S100000x64 ![] bcast_S_S100000x64 (constant (F := Ideal) S_ .f32 0x3F800000#32))
      (Host.exp (Host.negf (addf (Host.dotGeneral dot_S100000x128_S128x64_S100000x64_1_0_0_1_n_n none H W)
        (broadcastInDim S100000x64 ![0, 1] bcast_S1x64_S100000x64_0_1 β)))))

/-- The number one broadcast from a scalar reads the literal for one at every entry. -/
theorem one_apply (r : Fin 100000) (q : Fin 64) :
    broadcastInDim S100000x64 ![] bcast_S_S100000x64 (constant (F := Ideal) S_ .f32 0x3F800000#32) (ix2 r q)
      = Ideal.ofBits .f32 0x3F800000#32 :=
  broadcastInDim_apply _ bcast_S_S100000x64 _ (ix2 r q) ix0 (fun ax => ax.elim0)

/-- Entry `(r, q)` of the output layer is the logistic function of the transformed row plus the bias. -/
theorem head_apply (H : FVec Ideal S100000x128 .f32) (W : FVec Ideal S128x64 .f32) (β : FVec Ideal S1x64 .f32)
    (r : Fin 100000) (q : Fin 64) :
    head H W β (ix2 r q) = Ideal.logistic ((∑ e : Fin 128, H (ix2 r e) * W (ix2 e q)) + β (ix2 (0 : Fin 1) q)) := by
  have hd : Host.dotGeneral dot_S100000x128_S128x64_S100000x64_1_0_0_1_n_n none H W (ix2 r q)
      = ∑ e : Fin 128, H (ix2 r e) * W (ix2 e q) := by
    simp only [Host.dotGeneral]
    exact Cert.LibRowMax.dotGeneral_plain_apply dot_S100000x128_S128x64_S100000x64_1_0_0_1_n_n.wf _ _ H W r q
  have hb : broadcastInDim S100000x64 ![0, 1] bcast_S1x64_S100000x64_0_1 β (ix2 r q) = β (ix2 (0 : Fin 1) q) :=
    Cert.LibRowMax.broadcastInDim_1b_ab_apply β bcast_S1x64_S100000x64_0_1 r q
  unfold head
  show FloatOps.hostDivf
      (broadcastInDim S100000x64 ![] bcast_S_S100000x64 (constant (F := Ideal) S_ .f32 0x3F800000#32) (ix2 r q))
      (FloatOps.addf
        (broadcastInDim S100000x64 ![] bcast_S_S100000x64 (constant (F := Ideal) S_ .f32 0x3F800000#32) (ix2 r q))
        (FloatOps.hostUnary .exp (FloatOps.hostNegf (FloatOps.addf
          (Host.dotGeneral dot_S100000x128_S128x64_S100000x64_1_0_0_1_n_n none H W (ix2 r q))
          (broadcastInDim S100000x64 ![0, 1] bcast_S1x64_S100000x64_0_1 β (ix2 r q)))))) = _
  rw [one_apply, hd, hb]
  exact logistic_expanded _

end Cert.GcnOps

end
-- ==== Proof.Dense0.lean ====
/-
  The first feature transform, block by block. The grid has 20 points. Point `t` brings rows `5000·t … 5000·t + 4999`
  of the left matrix and the whole right matrix into the body; the body multiplies them (the narrowing of both
  factors to a shorter float format is the identity on the extended reals, and the accumulator starts at zero), and
  the product is written back as rows `5000·t …` of the result. So row `r` of the result is row `r` of the whole
  product, entry by entry the sum over the 128 inner coordinates, and the 20 blocks cover all 100000 rows: the result
  array ends holding the whole product of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Dense0

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's product at entry `(p, q)` of the block: the sum over the inner coordinate. -/
theorem product_apply (x0 : Vec Ideal S5000x128 .f32) (x1 : Vec Ideal S128x128 .f32) (p : Fin 5000) (q : Fin 128) :
    k0_pay1 (F := Ideal) x0 x1 (ix2 p q) = ∑ e : Fin 128, x0 (ix2 p e) * x1 (ix2 e q) := by
  unfold k0_pay1
  exact Cert.LibRowMax.matmul_plain_apply dot_S5000x128_S128x128_S5000x128_1_0_0_1_n_n.wf none _ _ p q

/-- Where the blocks sit, decided over the 20 grid points: the left and the result block of point `t` are block
    row `t`, block column 0; the right matrix is always its one block. -/
theorem block_places : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 19 :=
  (by decide +kernel : ∀ t : Fin grid0.N, _)

/-- Every block row of the result is some point's. -/
theorem block_rows_onto : ∀ q0 : Fin 20, ∃ t : Fin cfg0.N, win0_2.index t = ![q0.val, 0] :=
  (by decide +kernel : ∀ q0 : Fin 20, ∃ t : Fin grid0.N, win0_2.index t = ![q0.val, 0])

/-- What point `t` writes back is block `t` of the whole product. -/
theorem flushed_eq (c : Dev nD) (t : Fin cfg0.N) :
    (dat0 V c).flushed 2 t
      = ((cfg0.win 2).blk t).view.read (Elt Ideal) (Cert.GcnOps.dense (V c main_arg0) (V c main_arg2)) := by
  show (cfg0.win 2).cut (grid0.coords t) ((dat0 V c).after 2 t) = _
  rw [after0_2]
  unfold out0_2
  rw [View.canon_unit_zero corner]
  simp only [View.ld_unit_zero (S := S5000x128) corner, View.ld_unit_zero (S := S128x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win0_2.index t (0 : Fin 2) * 5000 + p.val < 100000 := by omega
  have hout : ((cfg0.win 2).blk t).view.emb (ix2 p q)
      = ix2 (⟨win0_2.index t (0 : Fin 2) * 5000 + p.val, hr⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  show k0_pay1 (iblk0 V c 0 t) (iblk0 V c 1 t) (ix2 p q)
    = Cert.GcnOps.dense (V c main_arg0) (V c main_arg2) (((cfg0.win 2).blk t).view.emb (ix2 p q))
  rw [hout, Cert.GcnOps.dense_apply]
  refine (product_apply (iblk0 V c 0 t) (iblk0 V c 1 t) p q).trans (Finset.sum_congr rfl fun e _ => ?_)
  have h0 : ((cfg0.win 0).blk t).view.emb (ix2 p e)
      = ix2 (⟨win0_2.index t (0 : Fin 2) * 5000 + p.val, hr⟩ : Fin 100000) e := by
    funext a; apply Fin.ext
    match a with
    | ⟨0, _⟩ => show win0_0.index t (0 : Fin 2) * 5000 + 1 * p.val = win0_2.index t (0 : Fin 2) * 5000 + p.val; omega
    | ⟨1, _⟩ => show win0_0.index t (1 : Fin 2) * 128 + 1 * e.val = e.val; omega
  have h1 : ((cfg0.win 1).blk t).view.emb (ix2 e q) = ix2 e q := by
    funext a; apply Fin.ext
    match a with
    | ⟨0, _⟩ => show win0_1.index t (0 : Fin 2) * 128 + 1 * e.val = e.val; omega
    | ⟨1, _⟩ => show win0_1.index t (1 : Fin 2) * 128 + 1 * q.val = q.val; omega
  have ha : iblk0 V c 0 t (ix2 p e)
      = V c main_arg0 (ix2 (⟨win0_2.index t (0 : Fin 2) * 5000 + p.val, hr⟩ : Fin 100000) e) := by
    show V c (Pipeline.arrRef spec0 0) (((cfg0.win 0).blk t).view.emb (ix2 p e)) = _
    rw [h0]
  have hb : iblk0 V c 1 t (ix2 e q) = V c main_arg2 (ix2 e q) := by
    show V c (Pipeline.arrRef spec0 1) (((cfg0.win 1).blk t).view.emb (ix2 e q)) = _
    rw [h1]
  rw [ha, hb]

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v32).slice (win0_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := block_rows_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the two arrays as the region found them. -/
theorem final (c : Dev nD) :
    (dat0 V c).arrAt 2 cfg0.N = Cert.GcnOps.dense (V c main_arg0) (V c main_arg2) :=
  (dat0 V c).arrAt_eq_of_cover 2 _ (fun t _ => flushed_eq V c t) (covered)

end Cert.KernelIdeal.Dense0

end
-- ==== Proof.Clamp1.lean ====
/-
  The first bias-and-clamp step, block by block. The grid has 20 points. Point `t` brings rows
  `5000·t … 5000·t + 4999` of the aggregated matrix and the whole `[1, 128]` bias row into the body; the body adds the
  bias row to every row of the block and takes the maximum with zero, and the block is written back as rows `5000·t …`
  of the result. So entry `(r, q)` of the result is `max (A (r, q) + β (0, q)) 0`, and the 20 blocks cover all 100000
  rows: the result array ends holding the clamped sum of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Clamp1

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's clamped sum at entry `(p, q)` of the block. -/
theorem clamp_apply (x0 : Vec Ideal S5000x128 .f32) (x1 : Vec Ideal S1x128 .f32) (p : Fin 5000) (q : Fin 128) :
    k1_pay1 (F := Ideal) x0 x1 (ix2 p q)
      = max (x0 (ix2 p q) + x1 (ix2 (0 : Fin 1) q)) (Ideal.ofBits .f32 0x00000000#32) := by
  unfold k1_pay1
  exact Cert.LibBiasRow.vector_bias_clamp_apply x0 x1 _ _ _ p q

/-- Where the blocks sit, decided over the 20 grid points: the matrix and the result block of point `t` are block
    row `t`, block column 0; the bias row is always its one block. -/
theorem block_places : ∀ t : Fin cfg1.N,
    win1_0.index t (0 : Fin 2) = win1_2.index t (0 : Fin 2) ∧ win1_0.index t (1 : Fin 2) = 0
    ∧ win1_1.index t (0 : Fin 2) = 0 ∧ win1_1.index t (1 : Fin 2) = 0
    ∧ win1_2.index t (1 : Fin 2) = 0 ∧ win1_2.index t (0 : Fin 2) ≤ 19 :=
  (by decide +kernel : ∀ t : Fin grid1.N, _)

/-- Every block row of the result is some point's. -/
theorem block_rows_onto : ∀ q0 : Fin 20, ∃ t : Fin cfg1.N, win1_2.index t = ![q0.val, 0] :=
  (by decide +kernel : ∀ q0 : Fin 20, ∃ t : Fin grid1.N, win1_2.index t = ![q0.val, 0])

/-- What point `t` writes back is block `t` of the whole clamped sum. -/
theorem flushed_eq (c : Dev nD) (t : Fin cfg1.N) :
    (dat1 V c).flushed 2 t
      = ((cfg1.win 2).blk t).view.read (Elt Ideal) (Cert.GcnOps.biasClamp (V c main_v45) (V c main_v46)) := by
  show (cfg1.win 2).cut (grid1.coords t) ((dat1 V c).after 2 t) = _
  rw [after1_2]
  unfold out1_2
  rw [View.canon_unit_zero corner]
  simp only [View.ld_unit_zero (S := S5000x128) corner, View.ld_unit_zero (S := S1x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win1_2.index t (0 : Fin 2) * 5000 + p.val < 100000 := by omega
  have hout : ((cfg1.win 2).blk t).view.emb (ix2 p q)
      = ix2 (⟨win1_2.index t (0 : Fin 2) * 5000 + p.val, hr⟩ : Fin 100000) q := by
    funext a; apply Fin.ext
    match a with
    | ⟨0, _⟩ => show win1_2.index t (0 : Fin 2) * 5000 + 1 * p.val = win1_2.index t (0 : Fin 2) * 5000 + p.val; omega
    | ⟨1, _⟩ => show win1_2.index t (1 : Fin 2) * 128 + 1 * q.val = q.val; omega
  show k1_pay1 (iblk1 V c 0 t) (iblk1 V c 1 t) (ix2 p q)
    = Cert.GcnOps.biasClamp (V c main_v45) (V c main_v46) (((cfg1.win 2).blk t).view.emb (ix2 p q))
  rw [hout, Cert.GcnOps.biasClamp_apply]
  refine (clamp_apply (iblk1 V c 0 t) (iblk1 V c 1 t) p q).trans ?_
  have h0 : ((cfg1.win 0).blk t).view.emb (ix2 p q)
      = ix2 (⟨win1_2.index t (0 : Fin 2) * 5000 + p.val, hr⟩ : Fin 100000) q := by
    funext a; apply Fin.ext
    match a with
    | ⟨0, _⟩ => show win1_0.index t (0 : Fin 2) * 5000 + 1 * p.val = win1_2.index t (0 : Fin 2) * 5000 + p.val; omega
    | ⟨1, _⟩ => show win1_0.index t (1 : Fin 2) * 128 + 1 * q.val = q.val; omega
  have h1 : ((cfg1.win 1).blk t).view.emb (ix2 (0 : Fin 1) q) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have ha : iblk1 V c 0 t (ix2 p q)
      = V c main_v45 (ix2 (⟨win1_2.index t (0 : Fin 2) * 5000 + p.val, hr⟩ : Fin 100000) q) := by
    show V c (Pipeline.arrRef spec1 0) (((cfg1.win 0).blk t).view.emb (ix2 p q)) = _
    rw [h0]
  have hb : iblk1 V c 1 t (ix2 (0 : Fin 1) q) = V c main_v46 (ix2 (0 : Fin 1) q) := by
    show V c (Pipeline.arrRef spec1 1) (((cfg1.win 1).blk t).view.emb (ix2 (0 : Fin 1) q)) = _
    rw [h1]
  rw [ha, hb]

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v47).slice (win1_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := block_rows_onto ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the region: the clamped sum of the two arrays as the region found them. -/
theorem final (c : Dev nD) :
    (dat1 V c).arrAt 2 cfg1.N = Cert.GcnOps.biasClamp (V c main_v45) (V c main_v46) :=
  (dat1 V c).arrAt_eq_of_cover 2 _ (fun t _ => flushed_eq V c t) (covered)

end Cert.KernelIdeal.Clamp1

end
-- ==== Proof.Dense2.lean ====
/-
  The second feature transform, block by block. The grid has 20 points. Point `t` brings rows `5000·t … 5000·t + 4999`
  of the left matrix and the whole right matrix into the body; the body multiplies them (the narrowing of both
  factors to a shorter float format is the identity on the extended reals, and the accumulator starts at zero), and
  the product is written back as rows `5000·t …` of the result. So row `r` of the result is row `r` of the whole
  product, entry by entry the sum over the 128 inner coordinates, and the 20 blocks cover all 100000 rows: the result
  array ends holding the whole product of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Dense2

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's product at entry `(p, q)` of the block: the sum over the inner coordinate. -/
theorem product_apply (x0 : Vec Ideal S5000x128 .f32) (x1 : Vec Ideal S128x128 .f32) (p : Fin 5000) (q : Fin 128) :
    k2_pay1 (F := Ideal) x0 x1 (ix2 p q) = ∑ e : Fin 128, x0 (ix2 p e) * x1 (ix2 e q) := by
  unfold k2_pay1
  refine (Cert.LibRowMax.matmul_plain_apply dot_S5000x128_S128x128_S5000x128_1_0_0_1_n_n.wf none _ _ p q).trans
    (Finset.sum_congr rfl fun e _ => ?_)
  show shapeCast S5000x128 x0 _ (ix2 p e) * x1 (ix2 e q) = _
  rw [shapeCast_self]

/-- Where the blocks sit, decided over the 20 grid points: the left and the result block of point `t` are block
    row `t`, block column 0; the right matrix is always its one block. -/
theorem block_places : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 19 :=
  (by decide +kernel : ∀ t : Fin grid2.N, _)

/-- Every block row of the result is some point's. -/
theorem block_rows_onto : ∀ q0 : Fin 20, ∃ t : Fin cfg2.N, win2_2.index t = ![q0.val, 0] :=
  (by decide +kernel : ∀ q0 : Fin 20, ∃ t : Fin grid2.N, win2_2.index t = ![q0.val, 0])

/-- What point `t` writes back is block `t` of the whole product. -/
theorem flushed_eq (c : Dev nD) (t : Fin cfg2.N) :
    (dat2 V c).flushed 2 t
      = ((cfg2.win 2).blk t).view.read (Elt Ideal) (Cert.GcnOps.dense (V c main_v47) (V c main_arg4)) := by
  show (cfg2.win 2).cut (grid2.coords t) ((dat2 V c).after 2 t) = _
  rw [after2_2]
  unfold out2_2
  rw [View.canon_unit_zero corner]
  simp only [View.ld_unit_zero (S := S5000x128) corner, View.ld_unit_zero (S := S128x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win2_2.index t (0 : Fin 2) * 5000 + p.val < 100000 := by omega
  have hout : ((cfg2.win 2).blk t).view.emb (ix2 p q)
      = ix2 (⟨win2_2.index t (0 : Fin 2) * 5000 + p.val, hr⟩ : Fin 100000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  show k2_pay1 (iblk2 V c 0 t) (iblk2 V c 1 t) (ix2 p q)
    = Cert.GcnOps.dense (V c main_v47) (V c main_arg4) (((cfg2.win 2).blk t).view.emb (ix2 p q))
  rw [hout, Cert.GcnOps.dense_apply]
  refine (product_apply (iblk2 V c 0 t) (iblk2 V c 1 t) p q).trans (Finset.sum_congr rfl fun e _ => ?_)
  have h0 : ((cfg2.win 0).blk t).view.emb (ix2 p e)
      = ix2 (⟨win2_2.index t (0 : Fin 2) * 5000 + p.val, hr⟩ : Fin 100000) e := by
    funext a; apply Fin.ext
    match a with
    | ⟨0, _⟩ => show win2_0.index t (0 : Fin 2) * 5000 + 1 * p.val = win2_2.index t (0 : Fin 2) * 5000 + p.val; omega
    | ⟨1, _⟩ => show win2_0.index t (1 : Fin 2) * 128 + 1 * e.val = e.val; omega
  have h1 : ((cfg2.win 1).blk t).view.emb (ix2 e q) = ix2 e q := by
    funext a; apply Fin.ext
    match a with
    | ⟨0, _⟩ => show win2_1.index t (0 : Fin 2) * 128 + 1 * e.val = e.val; omega
    | ⟨1, _⟩ => show win2_1.index t (1 : Fin 2) * 128 + 1 * q.val = q.val; omega
  have ha : iblk2 V c 0 t (ix2 p e)
      = V c main_v47 (ix2 (⟨win2_2.index t (0 : Fin 2) * 5000 + p.val, hr⟩ : Fin 100000) e) := by
    show V c (Pipeline.arrRef spec2 0) (((cfg2.win 0).blk t).view.emb (ix2 p e)) = _
    rw [h0]
  have hb : iblk2 V c 1 t (ix2 e q) = V c main_arg4 (ix2 e q) := by
    show V c (Pipeline.arrRef spec2 1) (((cfg2.win 1).blk t).view.emb (ix2 e q)) = _
    rw [h1]
  rw [ha, hb]

/-- An index of the result array is in point `t`'s block iff each coordinate is in the block's range on its axis. -/
theorem mem_block (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v48).slice (win2_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := block_rows_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- The result array after the region: the whole product of the two arrays as the region found them. -/
theorem final (c : Dev nD) :
    (dat2 V c).arrAt 2 cfg2.N = Cert.GcnOps.dense (V c main_v47) (V c main_arg4) :=
  (dat2 V c).arrAt_eq_of_cover 2 _ (fun t _ => flushed_eq V c t) (covered)

end Cert.KernelIdeal.Dense2

end
-- ==== Proof.Layer1.lean ====
/-
  The first layer of the network, boundary by boundary: the feature transform `X · W₀` (a launch), the aggregation over
  edges (plain-array operations: each edge gathers its source's transformed row, scales it by the edge's weight, and the
  rows are summed into the edge's target), the bias and clamp (a launch), and the second layer's feature transform (a
  launch, which follows with no plain-array operation in between). Each buffer holds the other program's value of the
  same stage, as a function of the argument arrays.
-/
import proofs.«122204_j22265110462988_1_alg».proof.Proof.Gen.KernelIdeal.Frame
import proofs.«122204_j22265110462988_1_alg».proof.Proof.RefRead
import proofs.«122204_j22265110462988_1_alg».proof.Proof.Kept
import proofs.«122204_j22265110462988_1_alg».proof.Proof.Prefix
import proofs.«122204_j22265110462988_1_alg».proof.Proof.Dense0
import proofs.«122204_j22265110462988_1_alg».proof.Proof.Clamp1
import proofs.«122204_j22265110462988_1_alg».proof.Proof.Dense2

set_option maxRecDepth 16384

noncomputable section

namespace Cert.KernelIdeal.Layer1

open Cert.KernelIdeal Cert.KernelIdeal.Gen Cert.KernelIdeal.Facts₀ Cert.KernelIdeal.Facts
open Idealize.ShloMosaic Idealize.ShloMosaic.TcCoe Idealize.ShloMosaic.StableHlo Idealize.SL.Sem

open Cert.ReferenceIdeal.ReadP (val_main_v32 val_main_v45 val_main_v46 val_main_v49 val_main_v50)

variable (m : (ℓ : Loc nD τ sig) → Buf (Elt Ideal) ℓ) (ρ : Dev nD → PrngReg)

/-- The first launch leaves the transformed features `X · W₀`. -/
theorem W4_v32 (c : Dev nD) :
    W4 m ρ c (Proc.devRef .tc main_v32) = val_main_v32 (F := Ideal) (m ((c : Thread nD τ).loc main_arg0)) (m ((c : Thread nD τ).loc main_arg2)) := by
  refine (W4_arr m ρ c 2).trans ((Dense0.final (V3 m ρ) c).trans ?_)
  show Cert.GcnOps.dense (W3 m ρ c (Proc.devRef .tc main_arg0)) (W3 m ρ c (Proc.devRef .tc main_arg2)) = _
  rw [Kept.W3_arg0, Kept.W3_arg2]
  rfl

set_option maxHeartbeats 2000000 in
/-- The aggregation of the first layer's transformed features over the edges. -/
theorem W5_v45 (c : Dev nD) :
    W5 m ρ c (Proc.devRef .tc main_v45) = val_main_v45 (F := Ideal) (m ((c : Thread nD τ).loc main_arg0)) (m ((c : Thread nD τ).loc main_arg1)) (m ((c : Thread nD τ).loc main_arg2)) := by
  have eIn := W4_v32 m ρ c
  have e5 := (Kept.W4_v5 m ρ c).trans (Prefix.W3_v5 m ρ c)
  have e6 := (Kept.W4_v6 m ρ c).trans (Prefix.W3_v6 m ρ c)
  have e31 := (Kept.W4_v31 m ρ c).trans (Prefix.W3_v31 m ρ c)
  show StableHlo.after hostOps1 (W4 m ρ c) (Proc.devRef .tc main_v45) = _
  generalize W4 m ρ c = Vin at eIn e5 e6 e31 ⊢
  simp only [hostOps1]
  after_results_simp
  rw [eIn, e5, e6, e31]
  rfl

/-- The first bias vector laid out as a `[1, 128]` row. -/
theorem W5_v46 (c : Dev nD) :
    W5 m ρ c (Proc.devRef .tc main_v46) = val_main_v46 (F := Ideal) (m ((c : Thread nD τ).loc main_arg3)) := by
  show StableHlo.after hostOps1 (W4 m ρ c) (Proc.devRef .tc main_v46) = _
  simp only [hostOps1]
  after_results
  rw [Kept.W4_arg3]
  exact Cert.LibBiasRow.shapeCast_row_eq _ _ _

/-- The first hidden matrix: aggregated features plus bias, clamped at zero. -/
theorem W6_v47 (c : Dev nD) :
    W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) := by
  refine (W6_arr m ρ c 2).trans ((Clamp1.final (V5 m ρ) c).trans ?_)
  show Cert.GcnOps.biasClamp (W5 m ρ c (Proc.devRef .tc main_v45)) (W5 m ρ c (Proc.devRef .tc main_v46)) = _
  rw [W5_v45, W5_v46]
  rfl

/-- The second layer's transformed features. -/
theorem W7_v48 (c : Dev nD) :
    W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ((Dense2.final (V6 m ρ) c).trans ?_)
  show Cert.GcnOps.dense (W6 m ρ c (Proc.devRef .tc main_v47)) (W6 m ρ c (Proc.devRef .tc main_arg4)) = _
  rw [W6_v47, Kept.W6_arg4]
  rfl

end Cert.KernelIdeal.Layer1

end
-- ==== Proof.Clamp3.lean ====
/-
  The second bias-and-clamp step, block by block. The grid has 20 points. Point `t` brings rows
  `5000·t … 5000·t + 4999` of the aggregated matrix and the whole `[1, 128]` bias row into the body; the body adds the
  bias row to every row of the block and takes the maximum with zero, and the block is written back as rows `5000·t …`
  of the result. So entry `(r, q)` of the result is `max (A (r, q) + β (0, q)) 0`, and the 20 blocks cover all 100000
  rows: the result array ends holding the clamped sum of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Clamp3

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's clamped sum at entry `(p, q)` of the block. -/
theorem clamp_apply (x0 : Vec Ideal S5000x128 .f32) (x1 : Vec Ideal S1x128 .f32) (p : Fin 5000) (q : Fin 128) :
    k3_pay1 (F := Ideal) x0 x1 (ix2 p q)
      = max (x0 (ix2 p q) + x1 (ix2 (0 : Fin 1) q)) (Ideal.ofBits .f32 0x00000000#32) := by
  unfold k3_pay1
  exact Cert.LibBiasRow.vector_bias_clamp_apply x0 x1 _ _ _ p q

/-- Where the blocks sit, decided over the 20 grid points: the matrix and the result block of point `t` are block
    row `t`, block column 0; the bias row is always its one block. -/
theorem block_places : ∀ t : Fin cfg3.N,
    win3_0.index t (0 : Fin 2) = win3_2.index t (0 : Fin 2) ∧ win3_0.index t (1 : Fin 2) = 0
    ∧ win3_1.index t (0 : Fin 2) = 0 ∧ win3_1.index t (1 : Fin 2) = 0
    ∧ win3_2.index t (1 : Fin 2) = 0 ∧ win3_2.index t (0 : Fin 2) ≤ 19 :=
  (by decide +kernel : ∀ t : Fin grid3.N, _)

/-- Every block row of the result is some point's. -/
theorem block_rows_onto : ∀ q0 : Fin 20, ∃ t : Fin cfg3.N, win3_2.index t = ![q0.val, 0] :=
  (by decide +kernel : ∀ q0 : Fin 20, ∃ t : Fin grid3.N, win3_2.index t = ![q0.val, 0])

/-- What point `t` writes back is block `t` of the whole clamped sum. -/
theorem flushed_eq (c : Dev nD) (t : Fin cfg3.N) :
    (dat3 V c).flushed 2 t
      = ((cfg3.win 2).blk t).view.read (Elt Ideal) (Cert.GcnOps.biasClamp (V c main_v61) (V c main_v62)) := by
  show (cfg3.win 2).cut (grid3.coords t) ((dat3 V c).after 2 t) = _
  rw [after3_2]
  unfold out3_2
  rw [View.canon_unit_zero corner]
  simp only [View.ld_unit_zero (S := S5000x128) corner, View.ld_unit_zero (S := S1x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win3_2.index t (0 : Fin 2) * 5000 + p.val < 100000 := by omega
  have hout : ((cfg3.win 2).blk t).view.emb (ix2 p q)
      = ix2 (⟨win3_2.index t (0 : Fin 2) * 5000 + p.val, hr⟩ : Fin 100000) q := by
    funext a; apply Fin.ext
    match a with
    | ⟨0, _⟩ => show win3_2.index t (0 : Fin 2) * 5000 + 1 * p.val = win3_2.index t (0 : Fin 2) * 5000 + p.val; omega
    | ⟨1, _⟩ => show win3_2.index t (1 : Fin 2) * 128 + 1 * q.val = q.val; omega
  show k3_pay1 (iblk3 V c 0 t) (iblk3 V c 1 t) (ix2 p q)
    = Cert.GcnOps.biasClamp (V c main_v61) (V c main_v62) (((cfg3.win 2).blk t).view.emb (ix2 p q))
  rw [hout, Cert.GcnOps.biasClamp_apply]
  refine (clamp_apply (iblk3 V c 0 t) (iblk3 V c 1 t) p q).trans ?_
  have h0 : ((cfg3.win 0).blk t).view.emb (ix2 p q)
      = ix2 (⟨win3_2.index t (0 : Fin 2) * 5000 + p.val, hr⟩ : Fin 100000) q := by
    funext a; apply Fin.ext
    match a with
    | ⟨0, _⟩ => show win3_0.index t (0 : Fin 2) * 5000 + 1 * p.val = win3_2.index t (0 : Fin 2) * 5000 + p.val; omega
    | ⟨1, _⟩ => show win3_0.index t (1 : Fin 2) * 128 + 1 * q.val = q.val; omega
  have h1 : ((cfg3.win 1).blk t).view.emb (ix2 (0 : Fin 1) q) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have ha : iblk3 V c 0 t (ix2 p q)
      = V c main_v61 (ix2 (⟨win3_2.index t (0 : Fin 2) * 5000 + p.val, hr⟩ : Fin 100000) q) := by
    show V c (Pipeline.arrRef spec3 0) (((cfg3.win 0).blk t).view.emb (ix2 p q)) = _
    rw [h0]
  have hb : iblk3 V c 1 t (ix2 (0 : Fin 1) q) = V c main_v62 (ix2 (0 : Fin 1) q) := by
    show V c (Pipeline.arrRef spec3 1) (((cfg3.win 1).blk t).view.emb (ix2 (0 : Fin 1) q)) = _
    rw [h1]
  rw [ha, hb]

/-- An index of the result array is in point `t`'s block iff each coordinate is in the block's range on its axis. -/
theorem mem_block (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v63).slice (win3_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := block_rows_onto ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the region: the clamped sum of the two arrays as the region found them. -/
theorem final (c : Dev nD) :
    (dat3 V c).arrAt 2 cfg3.N = Cert.GcnOps.biasClamp (V c main_v61) (V c main_v62) :=
  (dat3 V c).arrAt_eq_of_cover 2 _ (fun t _ => flushed_eq V c t) (covered)

end Cert.KernelIdeal.Clamp3

end
-- ==== Proof.Dense4.lean ====
/-
  The third feature transform, block by block. The grid has 20 points. Point `t` brings rows `5000·t … 5000·t + 4999`
  of the left matrix and the whole right matrix into the body; the body multiplies them (the narrowing of both
  factors to a shorter float format is the identity on the extended reals, and the accumulator starts at zero), and
  the product is written back as rows `5000·t …` of the result. So row `r` of the result is row `r` of the whole
  product, entry by entry the sum over the 128 inner coordinates, and the 20 blocks cover all 100000 rows: the result
  array ends holding the whole product of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Dense4

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's product at entry `(p, q)` of the block: the sum over the inner coordinate. -/
theorem product_apply (x0 : Vec Ideal S5000x128 .f32) (x1 : Vec Ideal S128x128 .f32) (p : Fin 5000) (q : Fin 128) :
    k4_pay1 (F := Ideal) x0 x1 (ix2 p q) = ∑ e : Fin 128, x0 (ix2 p e) * x1 (ix2 e q) := by
  unfold k4_pay1
  refine (Cert.LibRowMax.matmul_plain_apply dot_S5000x128_S128x128_S5000x128_1_0_0_1_n_n.wf none _ _ p q).trans
    (Finset.sum_congr rfl fun e _ => ?_)
  show shapeCast S5000x128 x0 _ (ix2 p e) * x1 (ix2 e q) = _
  rw [shapeCast_self]

/-- Where the blocks sit, decided over the 20 grid points: the left and the result block of point `t` are block
    row `t`, block column 0; the right matrix is always its one block. -/
theorem block_places : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 19 :=
  (by decide +kernel : ∀ t : Fin grid4.N, _)

/-- Every block row of the result is some point's. -/
theorem block_rows_onto : ∀ q0 : Fin 20, ∃ t : Fin cfg4.N, win4_2.index t = ![q0.val, 0] :=
  (by decide +kernel : ∀ q0 : Fin 20, ∃ t : Fin grid4.N, win4_2.index t = ![q0.val, 0])

/-- What point `t` writes back is block `t` of the whole product. -/
theorem flushed_eq (c : Dev nD) (t : Fin cfg4.N) :
    (dat4 V c).flushed 2 t
      = ((cfg4.win 2).blk t).view.read (Elt Ideal) (Cert.GcnOps.dense (V c main_v63) (V c main_arg6)) := by
  show (cfg4.win 2).cut (grid4.coords t) ((dat4 V c).after 2 t) = _
  rw [after4_2]
  unfold out4_2
  rw [View.canon_unit_zero corner]
  simp only [View.ld_unit_zero (S := S5000x128) corner, View.ld_unit_zero (S := S128x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win4_2.index t (0 : Fin 2) * 5000 + p.val < 100000 := by omega
  have hout : ((cfg4.win 2).blk t).view.emb (ix2 p q)
      = ix2 (⟨win4_2.index t (0 : Fin 2) * 5000 + p.val, hr⟩ : Fin 100000) q := by
    funext a; apply Fin.ext
    match a with
    | ⟨0, _⟩ => show win4_2.index t (0 : Fin 2) * 5000 + 1 * p.val = win4_2.index t (0 : Fin 2) * 5000 + p.val; omega
    | ⟨1, _⟩ => show win4_2.index t (1 : Fin 2) * 128 + 1 * q.val = q.val; omega
  show k4_pay1 (iblk4 V c 0 t) (iblk4 V c 1 t) (ix2 p q)
    = Cert.GcnOps.dense (V c main_v63) (V c main_arg6) (((cfg4.win 2).blk t).view.emb (ix2 p q))
  rw [hout, Cert.GcnOps.dense_apply]
  refine (product_apply (iblk4 V c 0 t) (iblk4 V c 1 t) p q).trans (Finset.sum_congr rfl fun e _ => ?_)
  have h0 : ((cfg4.win 0).blk t).view.emb (ix2 p e)
      = ix2 (⟨win4_2.index t (0 : Fin 2) * 5000 + p.val, hr⟩ : Fin 100000) e := by
    funext a; apply Fin.ext
    match a with
    | ⟨0, _⟩ => show win4_0.index t (0 : Fin 2) * 5000 + 1 * p.val = win4_2.index t (0 : Fin 2) * 5000 + p.val; omega
    | ⟨1, _⟩ => show win4_0.index t (1 : Fin 2) * 128 + 1 * e.val = e.val; omega
  have h1 : ((cfg4.win 1).blk t).view.emb (ix2 e q) = ix2 e q := by
    funext a; apply Fin.ext
    match a with
    | ⟨0, _⟩ => show win4_1.index t (0 : Fin 2) * 128 + 1 * e.val = e.val; omega
    | ⟨1, _⟩ => show win4_1.index t (1 : Fin 2) * 128 + 1 * q.val = q.val; omega
  have ha : iblk4 V c 0 t (ix2 p e)
      = V c main_v63 (ix2 (⟨win4_2.index t (0 : Fin 2) * 5000 + p.val, hr⟩ : Fin 100000) e) := by
    show V c (Pipeline.arrRef spec4 0) (((cfg4.win 0).blk t).view.emb (ix2 p e)) = _
    rw [h0]
  have hb : iblk4 V c 1 t (ix2 e q) = V c main_arg6 (ix2 e q) := by
    show V c (Pipeline.arrRef spec4 1) (((cfg4.win 1).blk t).view.emb (ix2 e q)) = _
    rw [h1]
  rw [ha, hb]

/-- An index of the result array is in point `t`'s block iff each coordinate is in the block's range on its axis. -/
theorem mem_block (t : Fin cfg4.N) (i : S100000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_v64).slice (win4_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := block_rows_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The result array after the region: the whole product of the two arrays as the region found them. -/
theorem final (c : Dev nD) :
    (dat4 V c).arrAt 2 cfg4.N = Cert.GcnOps.dense (V c main_v63) (V c main_arg6) :=
  (dat4 V c).arrAt_eq_of_cover 2 _ (fun t _ => flushed_eq V c t) (covered)

end Cert.KernelIdeal.Dense4

end
-- ==== Proof.Layer2.lean ====
/-
  The second layer of the network, boundary by boundary: the aggregation over edges of the second layer's transformed
  features (plain-array operations), the bias and clamp (a launch) and the third layer's feature transform (a launch).
  Each buffer holds the other program's value of the same stage, as a function of the argument arrays.
-/
import proofs.«122204_j22265110462988_1_alg».proof.Proof.Gen.KernelIdeal.Frame
import proofs.«122204_j22265110462988_1_alg».proof.Proof.RefRead
import proofs.«122204_j22265110462988_1_alg».proof.Proof.Kept
import proofs.«122204_j22265110462988_1_alg».proof.Proof.Prefix
import proofs.«122204_j22265110462988_1_alg».proof.Proof.Layer1
import proofs.«122204_j22265110462988_1_alg».proof.Proof.Clamp3
import proofs.«122204_j22265110462988_1_alg».proof.Proof.Dense4

set_option maxRecDepth 16384

noncomputable section

namespace Cert.KernelIdeal.Layer2

open Cert.KernelIdeal Cert.KernelIdeal.Gen Cert.KernelIdeal.Facts₀ Cert.KernelIdeal.Facts
open Idealize.ShloMosaic Idealize.ShloMosaic.TcCoe Idealize.ShloMosaic.StableHlo Idealize.SL.Sem

open Cert.ReferenceIdeal.ReadP (val_main_v63 val_main_v64 val_main_v67 val_main_v68)

variable (m : (ℓ : Loc nD τ sig) → Buf (Elt Ideal) ℓ) (ρ : Dev nD → PrngReg)

set_option maxHeartbeats 2000000 in
/-- The aggregation of the second layer's transformed features over the edges. -/
theorem W8_v61 (c : Dev nD) :
    W8 m ρ c (Proc.devRef .tc main_v61) = val_main_v63 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  have eIn := Layer1.W7_v48 m ρ c
  have e5 := (Kept.W7_v5 m ρ c).trans (Prefix.W3_v5 m ρ c)
  have e6 := (Kept.W7_v6 m ρ c).trans (Prefix.W3_v6 m ρ c)
  have e31 := (Kept.W7_v31 m ρ c).trans (Prefix.W3_v31 m ρ c)
  show StableHlo.after hostOps3 (W7 m ρ c) (Proc.devRef .tc main_v61) = _
  generalize W7 m ρ c = Vin at eIn e5 e6 e31 ⊢
  simp only [hostOps3]
  after_results_simp
  rw [eIn, e5, e6, e31]
  rfl

/-- The second bias vector laid out as a `[1, 128]` row. -/
theorem W8_v62 (c : Dev nD) :
    W8 m ρ c (Proc.devRef .tc main_v62) = val_main_v64 (F := Ideal) (m ((c : Thread nD τ).loc main_arg5)) := by
  show StableHlo.after hostOps3 (W7 m ρ c) (Proc.devRef .tc main_v62) = _
  simp only [hostOps3]
  after_results
  rw [Kept.W7_arg5]
  exact Cert.LibBiasRow.shapeCast_row_eq _ _ _

/-- The second hidden matrix. -/
theorem W9_v63 (c : Dev nD) :
    W9 m ρ c (Proc.devRef .tc main_v63) = val_main_v67 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ((Clamp3.final (V8 m ρ) c).trans ?_)
  show Cert.GcnOps.biasClamp (W8 m ρ c (Proc.devRef .tc main_v61)) (W8 m ρ c (Proc.devRef .tc main_v62)) = _
  rw [W8_v61, W8_v62]
  rfl

/-- The third layer's transformed features. -/
theorem W10_v64 (c : Dev nD) :
    W10 m ρ c (Proc.devRef .tc main_v64) = val_main_v68 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ((Dense4.final (V9 m ρ) c).trans ?_)
  show Cert.GcnOps.dense (W9 m ρ c (Proc.devRef .tc main_v63)) (W9 m ρ c (Proc.devRef .tc main_arg6)) = _
  rw [W9_v63, Kept.W9_arg6]
  rfl

end Cert.KernelIdeal.Layer2

end
-- ==== Proof.Clamp5.lean ====
/-
  The third bias-and-clamp step, block by block. The grid has 20 points. Point `t` brings rows
  `5000·t … 5000·t + 4999` of the aggregated matrix and the whole `[1, 128]` bias row into the body; the body adds the
  bias row to every row of the block and takes the maximum with zero, and the block is written back as rows `5000·t …`
  of the result. So entry `(r, q)` of the result is `max (A (r, q) + β (0, q)) 0`, and the 20 blocks cover all 100000
  rows: the result array ends holding the clamped sum of the two arrays as the region found them.
-/
import proofs.«122204_j22265110462988_1_alg».proof.Proof.Gen.KernelIdeal.Frame
import proofs.«122204_j22265110462988_1_alg».proof.Proof.RefOps

set_option maxRecDepth 16384

noncomputable section

namespace Cert.KernelIdeal.Clamp5

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's clamped sum at entry `(p, q)` of the block. -/
theorem clamp_apply (x0 : Vec Ideal S5000x128 .f32) (x1 : Vec Ideal S1x128 .f32) (p : Fin 5000) (q : Fin 128) :
    k5_pay1 (F := Ideal) x0 x1 (ix2 p q)
      = max (x0 (ix2 p q) + x1 (ix2 (0 : Fin 1) q)) (Ideal.ofBits .f32 0x00000000#32) := by
  unfold k5_pay1
  exact Cert.LibBiasRow.vector_bias_clamp_apply x0 x1 _ _ _ p q

/-- Where the blocks sit, decided over the 20 grid points: the matrix and the result block of point `t` are block
    row `t`, block column 0; the bias row is always its one block. -/
theorem block_places : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 19 :=
  (by decide +kernel : ∀ t : Fin grid5.N, _)

/-- Every block row of the result is some point's. -/
theorem block_rows_onto : ∀ q0 : Fin 20, ∃ t : Fin cfg5.N, win5_2.index t = ![q0.val, 0] :=
  (by decide +kernel : ∀ q0 : Fin 20, ∃ t : Fin grid5.N, win5_2.index t = ![q0.val, 0])

/-- What point `t` writes back is block `t` of the whole clamped sum. -/
theorem flushed_eq (c : Dev nD) (t : Fin cfg5.N) :
    (dat5 V c).flushed 2 t
      = ((cfg5.win 2).blk t).view.read (Elt Ideal) (Cert.GcnOps.biasClamp (V c main_v77) (V c main_v78)) := by
  show (cfg5.win 2).cut (grid5.coords t) ((dat5 V c).after 2 t) = _
  rw [after5_2]
  unfold out5_2
  rw [View.canon_unit_zero corner]
  simp only [View.ld_unit_zero (S := S5000x128) corner, View.ld_unit_zero (S := S1x128) corner]
  obtain ⟨e0, e1, e2, e3, e4, e5⟩ := block_places t
  funext j
  obtain ⟨p, q, rfl⟩ : ∃ (p : Fin 5000) (q : Fin 128), j = ix2 p q := ⟨j 0, j 1, eq_ix2 j⟩
  have hp : p.val < 5000 := p.isLt
  have hr : win5_2.index t (0 : Fin 2) * 5000 + p.val < 100000 := by omega
  have hout : ((cfg5.win 2).blk t).view.emb (ix2 p q)
      = ix2 (⟨win5_2.index t (0 : Fin 2) * 5000 + p.val, hr⟩ : Fin 100000) q := by
    funext a; apply Fin.ext
    match a with
    | ⟨0, _⟩ => show win5_2.index t (0 : Fin 2) * 5000 + 1 * p.val = win5_2.index t (0 : Fin 2) * 5000 + p.val; omega
    | ⟨1, _⟩ => show win5_2.index t (1 : Fin 2) * 128 + 1 * q.val = q.val; omega
  show k5_pay1 (iblk5 V c 0 t) (iblk5 V c 1 t) (ix2 p q)
    = Cert.GcnOps.biasClamp (V c main_v77) (V c main_v78) (((cfg5.win 2).blk t).view.emb (ix2 p q))
  rw [hout, Cert.GcnOps.biasClamp_apply]
  refine (clamp_apply (iblk5 V c 0 t) (iblk5 V c 1 t) p q).trans ?_
  have h0 : ((cfg5.win 0).blk t).view.emb (ix2 p q)
      = ix2 (⟨win5_2.index t (0 : Fin 2) * 5000 + p.val, hr⟩ : Fin 100000) q := by
    funext a; apply Fin.ext
    match a with
    | ⟨0, _⟩ => show win5_0.index t (0 : Fin 2) * 5000 + 1 * p.val = win5_2.index t (0 : Fin 2) * 5000 + p.val; omega
    | ⟨1, _⟩ => show win5_0.index t (1 : Fin 2) * 128 + 1 * q.val = q.val; omega
  have h1 : ((cfg5.win 1).blk t).view.emb (ix2 (0 : Fin 1) q) = ix2 (0 : Fin 1) q := by
    funext a; apply Fin.ext
    match a with
    | ⟨0, _⟩ => show win5_1.index t (0 : Fin 2) * 1 + 1 * 0 = 0; omega
    | ⟨1, _⟩ => show win5_1.index t (1 : Fin 2) * 128 + 1 * q.val = q.val; omega
  have ha : iblk5 V c 0 t (ix2 p q)
      = V c main_v77 (ix2 (⟨win5_2.index t (0 : Fin 2) * 5000 + p.val, hr⟩ : Fin 100000) q) := by
    show V c (Pipeline.arrRef spec5 0) (((cfg5.win 0).blk t).view.emb (ix2 p q)) = _
    rw [h0]
  have hb : iblk5 V c 1 t (ix2 (0 : Fin 1) q) = V c main_v78 (ix2 (0 : Fin 1) q) := by
    show V c (Pipeline.arrRef spec5 1) (((cfg5.win 1).blk t).view.emb (ix2 (0 : Fin 1) q)) = _
    rw [h1]
  rw [ha, hb]

/-- An index of the result array is in point `t`'s block iff each coordinate is in the block's range on its axis. -/
theorem mem_block (t : Fin cfg5.N) (i : S100000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_v79).slice (win5_2.rect t)).set ↔ _
  rw [View.set_slice_whole, Rect.mem_set_unit]
  exact Iff.rfl

/-- The 20 blocks cover the array: row `r` lies in the block of the point whose block row is `r / 5000`. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := block_rows_onto ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

/-- The result array after the region: the clamped sum of the two arrays as the region found them. -/
theorem final (c : Dev nD) :
    (dat5 V c).arrAt 2 cfg5.N = Cert.GcnOps.biasClamp (V c main_v77) (V c main_v78) :=
  (dat5 V c).arrAt_eq_of_cover 2 _ (fun t _ => flushed_eq V c t) (covered)

end Cert.KernelIdeal.Clamp5

end
-- ==== Proof.Head6.lean ====
/-
  The output layer, block by block. The grid has 20 points. Point `t` brings rows `5000·t … 5000·t + 4999` of the last
  hidden matrix, the whole `[128, 64]` weight matrix and the whole `[1, 64]` bias row into the body; the body multiplies
  the block by the weights (the narrowing of both factors to a shorter float format is the identity on the extended
  reals, the accumulator starts at zero), adds the bias row to every row and applies the logistic function entry by
  entry; the block is written back as rows `5000·t …` of the result. So entry `(r, q)` of the result is the logistic
  function of `(H · W) (r, q) + β (0, q)`, and the 20 blocks cover all 100000 rows.
-/
import proofs.«122204_j22265110462988_1_alg».proof.Proof.Gen.KernelIdeal.Frame
import proofs.«122204_j22265110462988_1_alg».proof.Proof.RefOps

set_option maxRecDepth 16384

noncomputable section

namespace Cert.KernelIdeal.Head6

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem corner : (![0, 0] : Fin 2 → Nat) = fun _ => 0 := funext fun a => by fin_cases a <;> rfl

/-- The body's value at entry `(p, q)` of the block: the logistic function of the product's entry plus the bias. -/
theorem head_block_apply (x0 : Vec Ideal S5000x128 .f32) (x1 : Vec Ideal S128x64 .f32) (x2 : Vec Ideal S1x64 .f32)
    (p : Fin 5000) (q : Fin 64) :
    k6_pay1 (F := Ideal) x0 x1 x2 (ix2 p q)
      = Ideal.logistic ((∑ e : Fin 128, x0 (ix2 p e) * x1 (ix2 e q)) + x2 (ix2 (0 : Fin 1) q)) := by
  unfold k6_pay1
  refine congrArg Ideal.logistic
    ((Cert.LibBiasRow.vector_bias_apply _ x2 _ _ p q).trans
      (congrArg (· + x2 (ix2 (0 : Fin 1) q))
        ((Cert.LibRowMax.matmul_plain_apply dot_S5000x128_S128x64_S5000x64_1_0_0_1_n_n.wf none _ _ p q).trans ?_)))
  refine Finset.sum_congr rfl fun e _ => ?_
  show shapeCast S5000x128 x0 _ (ix2 p e) * x1 (ix2 e q) = _
  rw [shapeCast_self]

/-- Where the blocks sit, decided over the 20 grid points: the hidden matrix and the result block of point `t` are
    block row `t`, block column 0; the weights and the bias row are always their one block. -/
theorem block_places : ∀ t : Fin cfg6.N,
    win6_0.index t (0 : Fin 2) = win6_3.index t (0 : Fin 2) ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (1 : Fin 2) = 0 ∧ win6_3.index t (0 : Fin 2) ≤ 19 :=
  (by decide +kernel : ∀ t : Fin grid6.N, _)

/-- Every block row of the result is some point's. -/
theorem block_rows_onto : ∀ q0 : Fin 20, ∃ t : Fin cfg6.N, win6_3.index t = ![q0.val, 0] :=
  (by decide +kernel : ∀ q0 : Fin 20, ∃ t : Fin grid6.N, win6_3.index t = ![q0.val, 0])

/-- What point `t` writes back is block `t` of the whole output layer. -/
theorem flushed_eq (c : Dev nD) (t : Fin cfg6.N) :
    (dat6 V c).flushed 3 t
      = ((cfg6.win 3).blk t).view.read (Elt Ideal) (Cert.GcnOps.head (V c main_v79) (V c main_arg8) (V c main_v80)) := by
  show (cfg6.win 3).cut (grid6.coords t) ((dat6 V c).after 3 t) = _
  rw [after6_3]
  unfold out6_3
  rw [View.canon_unit_zero corner]
  simp only [View.ld_unit_zero (S := S5000x128) corner, View.ld_unit_zero (S := S128x64) corner,
    View.ld_unit_zero (S := S1x64) corner]
  obtain ⟨e0, e1, e2, e3, e4, e5, e6, e7⟩ := block_places t
  funext j
  obtain ⟨p, q, rfl⟩ : ∃ (p : Fin 5000) (q : Fin 64), j = ix2 p q := ⟨j 0, j 1, eq_ix2 j⟩
  have hp : p.val < 5000 := p.isLt
  have hr : win6_3.index t (0 : Fin 2) * 5000 + p.val < 100000 := by omega
  have hout : ((cfg6.win 3).blk t).view.emb (ix2 p q)
      = ix2 (⟨win6_3.index t (0 : Fin 2) * 5000 + p.val, hr⟩ : Fin 100000) q := by
    funext a; apply Fin.ext
    match a with
    | ⟨0, _⟩ => show win6_3.index t (0 : Fin 2) * 5000 + 1 * p.val = win6_3.index t (0 : Fin 2) * 5000 + p.val; omega
    | ⟨1, _⟩ => show win6_3.index t (1 : Fin 2) * 64 + 1 * q.val = q.val; omega
  show k6_pay1 (iblk6 V c 0 t) (iblk6 V c 1 t) (iblk6 V c 2 t) (ix2 p q)
    = Cert.GcnOps.head (V c main_v79) (V c main_arg8) (V c main_v80) (((cfg6.win 3).blk t).view.emb (ix2 p q))
  rw [hout, Cert.GcnOps.head_apply]
  refine (head_block_apply (iblk6 V c 0 t) (iblk6 V c 1 t) (iblk6 V c 2 t) p q).trans (congrArg Ideal.logistic ?_)
  have h2 : ((cfg6.win 2).blk t).view.emb (ix2 (0 : Fin 1) q) = ix2 (0 : Fin 1) q := by
    funext a; apply Fin.ext
    match a with
    | ⟨0, _⟩ => show win6_2.index t (0 : Fin 2) * 1 + 1 * 0 = 0; omega
    | ⟨1, _⟩ => show win6_2.index t (1 : Fin 2) * 64 + 1 * q.val = q.val; omega
  have ha : ∀ e : Fin 128, iblk6 V c 0 t (ix2 p e)
      = V c main_v79 (ix2 (⟨win6_3.index t (0 : Fin 2) * 5000 + p.val, hr⟩ : Fin 100000) e) := fun e => by
    have h0 : ((cfg6.win 0).blk t).view.emb (ix2 p e)
        = ix2 (⟨win6_3.index t (0 : Fin 2) * 5000 + p.val, hr⟩ : Fin 100000) e := by
      funext a; apply Fin.ext
      match a with
      | ⟨0, _⟩ => show win6_0.index t (0 : Fin 2) * 5000 + 1 * p.val = win6_3.index t (0 : Fin 2) * 5000 + p.val; omega
      | ⟨1, _⟩ => show win6_0.index t (1 : Fin 2) * 128 + 1 * e.val = e.val; omega
    show V c (Pipeline.arrRef spec6 0) (((cfg6.win 0).blk t).view.emb (ix2 p e)) = _
    rw [h0]
  have hb : ∀ e : Fin 128, iblk6 V c 1 t (ix2 e q) = V c main_arg8 (ix2 e q) := fun e => by
    have h1 : ((cfg6.win 1).blk t).view.emb (ix2 e q) = ix2 e q := by
      funext a; apply Fin.ext
      match a with
      | ⟨0, _⟩ => show win6_1.index t (0 : Fin 2) * 128 + 1 * e.val = e.val; omega
      | ⟨1, _⟩ => show win6_1.index t (1 : Fin 2) * 64 + 1 * q.val = q.val; omega
    show V c (Pipeline.arrRef spec6 1) (((cfg6.win 1).blk t).view.emb (ix2 e q)) = _
    rw [h1]
  have hc : iblk6 V c 2 t (ix2 (0 : Fin 1) q) = V c main_v80 (ix2 (0 : Fin 1) q) := by
    show V c (Pipeline.arrRef spec6 2) (((cfg6.win 2).blk t).view.emb (ix2 (0 : Fin 1) q)) = _
    rw [h2]
  simp only [ha, hb, hc]

/-- An index of the result array is in point `t`'s block iff each coordinate is in the block's range on its axis. -/
theorem mem_block (t : Fin cfg6.N) (i : S100000x64.Idx) :
    i ∈ ((cfg6.win 3).blk t).view.set ↔ ∀ a : Fin 2, win6_3.index t a * S5000x64.size a ≤ (i a).val
      ∧ (i a).val < win6_3.index t a * S5000x64.size a + S5000x64.size a := by
  show i ∈ ((View.whole main_v81).slice (win6_3.rect t)).set ↔ _
  rw [View.set_slice_whole, Rect.mem_set_unit]
  exact Iff.rfl

/-- The 20 blocks cover the array: row `r` lies in the block of the point whose block row is `r / 5000`. -/
theorem covered (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, ht⟩ := block_rows_onto ⟨(i 0).val / 5000, by omega⟩
  have q0 : win6_3.index t (0 : Fin 2) = (i 0).val / 5000 := congrFun ht 0
  have q1 : win6_3.index t (1 : Fin 2) = 0 := congrFun ht 1
  refine ⟨t, flush6_3 t, ?_⟩
  rw [mem_block]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-- The result array after the region: the output layer of the three arrays as the region found them. -/
theorem final (c : Dev nD) :
    (dat6 V c).arrAt 3 cfg6.N = Cert.GcnOps.head (V c main_v79) (V c main_arg8) (V c main_v80) :=
  (dat6 V c).arrAt_eq_of_cover 3 _ (fun t _ => flushed_eq V c t) (covered)

end Cert.KernelIdeal.Head6

end
-- ==== Proof.Layer3.lean ====
/-
  The third layer and the output layer, boundary by boundary: the aggregation over edges of the third layer's transformed
  features (plain-array operations), the bias and clamp (a launch), the output bias laid out as a row (one reshape), and
  the output layer (a launch): the logistic function of the last hidden matrix times the output weights plus the bias.
  The result array holds the other program's result, as a function of the argument arrays.
-/
import proofs.«122204_j22265110462988_1_alg».proof.Proof.Gen.KernelIdeal.Frame
import proofs.«122204_j22265110462988_1_alg».proof.Proof.RefRead
import proofs.«122204_j22265110462988_1_alg».proof.Proof.Kept
import proofs.«122204_j22265110462988_1_alg».proof.Proof.Prefix
import proofs.«122204_j22265110462988_1_alg».proof.Proof.Layer2
import proofs.«122204_j22265110462988_1_alg».proof.Proof.Clamp5
import proofs.«122204_j22265110462988_1_alg».proof.Proof.Head6

set_option maxRecDepth 16384

noncomputable section

namespace Cert.KernelIdeal.Layer3

open Cert.KernelIdeal Cert.KernelIdeal.Gen Cert.KernelIdeal.Facts₀ Cert.KernelIdeal.Facts
open Idealize.ShloMosaic Idealize.ShloMosaic.TcCoe Idealize.ShloMosaic.StableHlo Idealize.SL.Sem

open Cert.ReferenceIdeal.ReadP (val_main_v81 val_main_v82 val_main_v85 val_main_v87 val_main_v95)

variable (m : (ℓ : Loc nD τ sig) → Buf (Elt Ideal) ℓ) (ρ : Dev nD → PrngReg)

set_option maxHeartbeats 2000000 in
/-- The aggregation of the third layer's transformed features over the edges. -/
theorem W11_v77 (c : Dev nD) :
    W11 m ρ c (Proc.devRef .tc main_v77) = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have eIn := Layer2.W10_v64 m ρ c
  have e5 := (Kept.W10_v5 m ρ c).trans (Prefix.W3_v5 m ρ c)
  have e6 := (Kept.W10_v6 m ρ c).trans (Prefix.W3_v6 m ρ c)
  have e31 := (Kept.W10_v31 m ρ c).trans (Prefix.W3_v31 m ρ c)
  show StableHlo.after hostOps5 (W10 m ρ c) (Proc.devRef .tc main_v77) = _
  generalize W10 m ρ c = Vin at eIn e5 e6 e31 ⊢
  simp only [hostOps5]
  after_results_simp
  rw [eIn, e5, e6, e31]
  rfl

/-- The third bias vector laid out as a `[1, 128]` row. -/
theorem W11_v78 (c : Dev nD) :
    W11 m ρ c (Proc.devRef .tc main_v78) = val_main_v82 (F := Ideal) (m ((c : Thread nD τ).loc main_arg7)) := by
  show StableHlo.after hostOps5 (W10 m ρ c) (Proc.devRef .tc main_v78) = _
  simp only [hostOps5]
  after_results
  rw [Kept.W10_arg7]
  exact Cert.LibBiasRow.shapeCast_row_eq _ _ _

/-- The last hidden matrix. -/
theorem W12_v79 (c : Dev nD) :
    W12 m ρ c (Proc.devRef .tc main_v79) = val_main_v85 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ((Clamp5.final (V11 m ρ) c).trans ?_)
  show Cert.GcnOps.biasClamp (W11 m ρ c (Proc.devRef .tc main_v77)) (W11 m ρ c (Proc.devRef .tc main_v78)) = _
  rw [W11_v77, W11_v78]
  rfl

/-- The output bias laid out as a `[1, 64]` row. -/
theorem W13_v80 (c : Dev nD) :
    W13 m ρ c (Proc.devRef .tc main_v80) = val_main_v87 (F := Ideal) (m ((c : Thread nD τ).loc main_arg9)) := by
  show StableHlo.after hostOps6 (W12 m ρ c) (Proc.devRef .tc main_v80) = _
  simp only [hostOps6]
  after_results
  rw [Kept.W12_arg9]
  exact Cert.LibBiasRow.shapeCast_row_eq _ _ _

/-- The result array after the last launch is the other program's result of the same arguments. -/
theorem W14_v81 (c : Dev nD) :
    W14 m ρ c (Proc.devRef .tc main_v81) = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W14_arr m ρ c 3).trans ((Head6.final (V13 m ρ) c).trans ?_)
  show Cert.GcnOps.head (W13 m ρ c (Proc.devRef .tc main_v79)) (W13 m ρ c (Proc.devRef .tc main_arg8)) (W13 m ρ c (Proc.devRef .tc main_v80)) = _
  rw [Kept.W13_v79, W12_v79, Kept.W13_arg8, W13_v80]
  rfl

end Cert.KernelIdeal.Layer3

end
-- ==== Proof.lean ====
/-
  A three-layer graph convolutional network with a logistic output layer, over 100000 nodes with 128 features and
  800000 edges, against the plain-array program that computes the same network.

  Both programs first append a self-loop to every node, count each node's incoming edges, and give every edge the weight
  `1/√deg(source) · 1/√deg(target)`. A layer then transforms the node features by a weight matrix, lets every edge carry
  its source's transformed row, scaled by the edge's weight, to its target, where the rows are summed, adds a bias row
  and clamps at zero; the output layer transforms once more, adds a bias row and applies the logistic function.

  The two programs differ only in how the dense steps are carried out. The kernel program runs each feature transform,
  each bias-and-clamp and the output layer as a launch over 20 blocks of 5000 rows, narrowing the factors of a product to
  a shorter float format first; the plain-array program applies one whole-array operation, and spells the logistic
  function as `1 / (1 + exp (−z))`. On the extended reals a change of float format is the identity, a product block by
  block is the whole product read block by block (row `r` depends on row `r` of the left factor only, and the 20 blocks
  cover every row), and the two spellings of the logistic function agree at every extended real. The steps between the
  launches — building the edge lists and the weights, gathering, scaling and summing over edges — are the same operations
  in both programs. So, boundary by boundary, every buffer of the kernel program holds the plain-array program's value of
  the same stage, and the results are equal entry by entry. No sum is regrouped and no factor is moved across a sum, so
  the finiteness of the inputs is not used.

  The three frame claims: both kernel programs by their generated frame certificates; the plain-array program by its run
  read back. The idealisation rewrote nothing, so it preserves the kernel program trivially.
-/
import proofs.«122204_j22265110462988_1_alg».proof.Defs
import proofs.«122204_j22265110462988_1_alg».proof.Proof.Gen.Kernel
import proofs.«122204_j22265110462988_1_alg».proof.Proof.Gen.Kernel.Frame
import proofs.«122204_j22265110462988_1_alg».proof.Proof.Gen.KernelIdeal
import proofs.«122204_j22265110462988_1_alg».proof.Proof.Gen.KernelIdeal.Frame
import proofs.«122204_j22265110462988_1_alg».proof.Proof.Gen.ReferenceIdeal
import proofs.«122204_j22265110462988_1_alg».proof.Proof.Gen.Pre_finite_inputs
import proofs.«122204_j22265110462988_1_alg».proof.Proof.RefRun
import proofs.«122204_j22265110462988_1_alg».proof.Proof.RefRead
import proofs.«122204_j22265110462988_1_alg».proof.Proof.RunNamed
import proofs.«122204_j22265110462988_1_alg».proof.Proof.Layer3
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- The idealised kernel program runs and leaves its arguments unchanged. -/
theorem frame_kernel_ideal : Cert.frame_KernelIdeal := fun m ρ _ => Cert.KernelIdeal.Gen.frame m ρ

/-- The plain-array program runs and leaves its arguments unchanged: its run read back, the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealisation rewrote no operation. -/
theorem preserves : Cert.preserves_Kernel_KernelIdeal := trivial

/-- On the extended reals, from memories that agree on the ten arguments, both programs end with the same result: the
    kernel program's result array is the last link of its chain of boundary contents, which is the plain-array
    program's result term of the same arguments. -/
theorem algebraic : Cert.algebraic_KernelIdeal_ReferenceIdeal := by
  intro m ρ m' ρ' _ hagree
  refine ⟨fun c => Cert.KernelIdeal.Gen.W14 m ρ c (Proc.devRef .tc Cert.KernelIdeal.main_v81),
    Cert.KernelIdeal.Named.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9⟩ := hagree c
  show Cert.ReferenceIdeal.ValueP.res_main_v95 m' c
    = Cert.KernelIdeal.Gen.W14 m ρ c (Proc.devRef .tc Cert.KernelIdeal.main_v81)
  rw [Cert.ReferenceIdeal.ReadP.val_main_v95_eq, Cert.KernelIdeal.Layer3.W14_v81, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
